-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg22 : FVec F S128 .f32) (main_arg23 : FVec F S128x64 .f32) (main_arg24 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg23
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg19 : FVec F S128 .f32) (main_arg20 : FVec F S128 .f32) (main_arg21 : FVec F S128 .f32) (main_arg22 : FVec F S128 .f32) (main_arg23 : FVec F S128x64 .f32) (main_arg24 : FVec F S64 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 79
  | .vmem => 51
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128x64, .f32⟩
  | .hbm, ⟨24, _⟩ => ⟨S64, .f32⟩
  | .hbm, ⟨25, _⟩ => ⟨S1x600000, .i32⟩
  | .hbm, ⟨26, _⟩ => ⟨S600000, .i32⟩
  | .hbm, ⟨27, _⟩ => ⟨S1x600000, .i32⟩
  | .hbm, ⟨28, _⟩ => ⟨S600000, .i32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S50000, .f32⟩
  | .hbm, ⟨33, _⟩ => ⟨S600000x1, .i32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S50000x128, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x64, .f32⟩
  | .local _ .vmem, ⟨48, _⟩ => ⟨S64, .f32⟩
  | .local _ .vmem, ⟨49, _⟩ => ⟨S5000x64, .f32⟩
  | .local _ .vmem, ⟨50, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg10_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg3_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44
abbrev cc3_sem0_0 : DmaSem sig := 45
abbrev cc3_sem0_1 : DmaSem sig := 46
abbrev cc3_sem1_0 : DmaSem sig := 47
abbrev cc3_sem2_0 : DmaSem sig := 48
abbrev cc3_sem3_0 : DmaSem sig := 49
abbrev cc3_sem3_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg21) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg22) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v41) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg23) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg24) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128x64, .f32⟩
  | 24 => ⟨S64, .f32⟩
  | 25 => ⟨S1x600000, .i32⟩
  | 26 => ⟨S600000, .i32⟩
  | 27 => ⟨S1x600000, .i32⟩
  | 28 => ⟨S600000, .i32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S_, .f32⟩
  | 43 => ⟨S600000, .f32⟩
  | 44 => ⟨S_, .f32⟩
  | 45 => ⟨S50000, .f32⟩
  | 46 => ⟨S600000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S_, .f32⟩
  | 91 => ⟨S600000, .f32⟩
  | 92 => ⟨S_, .f32⟩
  | 93 => ⟨S50000, .f32⟩
  | 94 => ⟨S600000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S_, .i32⟩
  | 126 => ⟨S600000, .i32⟩
  | 127 => ⟨S600000, .i1⟩
  | _ => ⟨S50000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S_, .f32⟩
  | 7 => ⟨S50000x128, .f32⟩
  | 8 => ⟨S600000x1, .i32⟩
  | 9 => ⟨S50000x128, .f32⟩
  | 10 => ⟨S_, .f32⟩
  | 11 => ⟨S600000, .f32⟩
  | 12 => ⟨S_, .f32⟩
  | 13 => ⟨S50000, .f32⟩
  | 14 => ⟨S600000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x64, .f32⟩
  | 46 => ⟨S1x64, .f32⟩
  | 47 => ⟨S50000x64, .f32⟩
  | 48 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call0_cst : Ref sig .tc := ⟨.hbm, 74, rfl⟩
abbrev main_call0_v0 : Ref sig .tc := ⟨.hbm, 75, rfl⟩
abbrev main_v42 : Ref sig .tc := ⟨.hbm, 76, rfl⟩
abbrev main_c_5 : Ref sig .tc := ⟨.hbm, 77, rfl⟩
abbrev main_v43 : Ref sig .tc := ⟨.hbm, 78, rfl⟩
abbrev main_v44 : Ref sig .tc := ⟨.hbm, 79, rfl⟩
abbrev main_c_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_cst_9 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call1_cst : Ref sig .tc := ⟨.hbm, 122, rfl⟩
abbrev main_call1_v0 : Ref sig .tc := ⟨.hbm, 123, rfl⟩
abbrev main_v81 : Ref sig .tc := ⟨.hbm, 124, rfl⟩
abbrev main_c_12 : Ref sig .tc := ⟨.hbm, 125, rfl⟩
abbrev main_v82 : Ref sig .tc := ⟨.hbm, 126, rfl⟩
abbrev main_v83 : Ref sig .tc := ⟨.hbm, 127, rfl⟩
abbrev main_c_13 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_14 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_15 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_17 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_18 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_call2_cst : Ref sig .tc := ⟨.hbm, 170, rfl⟩
abbrev main_call2_v0 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The network both programs compute, on the extended reals, index by index.

  One layer takes the node features `h : [R, 128]`, the neighbour sums `agg : [R, 128]` and the neighbour counts as a
  column `cnt : [R, 1]`.  Row `p` of the neighbour mean is `agg[p, ·] / max(cnt[p], 1)`; the layer's entry `(p, e)` is
      max( (((Σⱼ mean[p, j] · Wl[j, e]) + bl[e]) + Σⱼ h[p, j] · Wr[j, e]  −  rm[e]) · (g[e] · rsqrt(rv[e] + ε))  +  b[e] ,  0 ),
  two products over the 128 input features, a bias, a normalisation by running statistics with an affine map, and a
  clamp at zero.  The read-out's entry `(p, e)` is `(Σⱼ h[p, j] · Wo[j, e]) + bo[e]`.  The network is three layers and the
  read-out, each layer's neighbour sums being one fixed function `aggF` of the features that enter it and the counts
  one fixed column.  Rows do not interact inside a layer, so the same formula describes a block of rows (`R = 5000`) and
  the whole array (`R = 50000`).
-/
import Idealize.ShloMosaic.PureOps.Ideal
import Idealize.ShloMosaic.Lib.ValueIdx

noncomputable section

open scoped BigOperators

namespace Cert.Sage

open Idealize.ShloMosaic Idealize.ShloMosaic.ValueIdx

/-- A rank-2 array of extended reals. -/
abbrev Mat (a b : ℕ) : Type := FVec Ideal ⟨2, ![a, b]⟩ .f32
/-- A rank-1 array of extended reals. -/
abbrev Vc (a : ℕ) : Type := FVec Ideal ⟨1, ![a]⟩ .f32

/-- Entry `(p, e)` of one layer over `R` rows. -/
def layerAt {R : ℕ} (h agg : Mat R 128) (cnt : Mat R 1) (Wl : Mat 128 128) (bl : Vc 128) (Wr : Mat 128 128)
    (g b rm rv : Vc 128) (p : Fin R) (e : Fin 128) : EReal :=
  max ((((∑ j : Fin 128, Ideal.div (agg (ix2 p j)) (max (cnt (ix2 p (0 : Fin 1))) (Ideal.ofBits .f32 0x3F800000#32)) * Wl (ix2 j e))
          + bl (ix1 e) + ∑ j : Fin 128, h (ix2 p j) * Wr (ix2 j e)) - rm (ix1 e))
        * (g (ix1 e) * Ideal.rsqrt (rv (ix1 e) + Ideal.ofBits .f32 0x3727C5AC#32)) + b (ix1 e))
    (Ideal.ofBits .f32 0x00000000#32)

/-- Entry `(p, e)` of the read-out over `R` rows. -/
def projAt {R : ℕ} (h : Mat R 128) (Wo : Mat 128 64) (bo : Vc 64) (p : Fin R) (e : Fin 64) : EReal :=
  (∑ j : Fin 128, h (ix2 p j) * Wo (ix2 j e)) + bo (ix1 e)

/-- One layer over all 50000 nodes. -/
def layer (h agg : Mat 50000 128) (cnt : Mat 50000 1) (Wl : Mat 128 128) (bl : Vc 128) (Wr : Mat 128 128)
    (g b rm rv : Vc 128) : Mat 50000 128 :=
  fun i => layerAt h agg cnt Wl bl Wr g b rm rv (i 0) (i 1)

/-- The read-out over all 50000 nodes. -/
def proj (h : Mat 50000 128) (Wo : Mat 128 64) (bo : Vc 64) : Mat 50000 64 :=
  fun i => projAt h Wo bo (i 0) (i 1)

theorem layer_apply (h agg : Mat 50000 128) (cnt : Mat 50000 1) (Wl : Mat 128 128) (bl : Vc 128) (Wr : Mat 128 128)
    (g b rm rv : Vc 128) (p : Fin 50000) (e : Fin 128) :
    layer h agg cnt Wl bl Wr g b rm rv (ix2 p e) = layerAt h agg cnt Wl bl Wr g b rm rv p e := rfl

theorem proj_apply (h : Mat 50000 128) (Wo : Mat 128 64) (bo : Vc 64) (p : Fin 50000) (e : Fin 64) :
    proj h Wo bo (ix2 p e) = projAt h Wo bo p e := rfl

/-- The network: three layers, each fed the neighbour sums `aggF` of the features that enter it, and the read-out. -/
def net (aggF : Mat 50000 128 → Mat 50000 128) (cnt : Mat 50000 1) (x : Mat 50000 128)
    (Wl1 : Mat 128 128) (bl1 : Vc 128) (Wr1 : Mat 128 128) (g1 b1 rm1 rv1 : Vc 128)
    (Wl2 : Mat 128 128) (bl2 : Vc 128) (Wr2 : Mat 128 128) (g2 b2 rm2 rv2 : Vc 128)
    (Wl3 : Mat 128 128) (bl3 : Vc 128) (Wr3 : Mat 128 128) (g3 b3 rm3 rv3 : Vc 128)
    (Wo : Mat 128 64) (bo : Vc 64) : Mat 50000 64 :=
  proj
    (layer
      (layer (layer x (aggF x) cnt Wl1 bl1 Wr1 g1 b1 rm1 rv1)
        (aggF (layer x (aggF x) cnt Wl1 bl1 Wr1 g1 b1 rm1 rv1)) cnt Wl2 bl2 Wr2 g2 b2 rm2 rv2)
      (aggF (layer (layer x (aggF x) cnt Wl1 bl1 Wr1 g1 b1 rm1 rv1)
        (aggF (layer x (aggF x) cnt Wl1 bl1 Wr1 g1 b1 rm1 rv1)) cnt Wl2 bl2 Wr2 g2 b2 rm2 rv2))
      cnt Wl3 bl3 Wr3 g3 b3 rm3 rv3)
    Wo bo

end Cert.Sage

end
-- ==== Proof.Rows.lean ====
/-
  Rows of a layer do not interact: entry `(p, e)` of a layer over one array of rows depends only on row `p` of the
  features, of the neighbour sums and of the counts.  So if row `p` of a block is row `p'` of the whole array, the
  layer's entry `(p, e)` over the block is its entry `(p', e)` over the whole array; likewise for the read-out.
-/
import proofs.«175492_j62251255988403_1_alg».proof.Proof.Spec

noncomputable section

open scoped BigOperators

namespace Cert.Sage

open Idealize.ShloMosaic Idealize.ShloMosaic.ValueIdx

theorem layerAt_rows {R R' : ℕ} (h agg : Mat R 128) (cnt : Mat R 1) (H AGG : Mat R' 128) (CNT : Mat R' 1)
    (Wl : Mat 128 128) (bl : Vc 128) (Wr : Mat 128 128) (g b rm rv : Vc 128) (p : Fin R) (p' : Fin R')
    (hh : ∀ j : Fin 128, h (ix2 p j) = H (ix2 p' j)) (ha : ∀ j : Fin 128, agg (ix2 p j) = AGG (ix2 p' j))
    (hc : cnt (ix2 p (0 : Fin 1)) = CNT (ix2 p' (0 : Fin 1))) (e : Fin 128) :
    layerAt h agg cnt Wl bl Wr g b rm rv p e = layerAt H AGG CNT Wl bl Wr g b rm rv p' e := by
  unfold layerAt
  simp only [hh, ha, hc]

theorem projAt_rows {R R' : ℕ} (h : Mat R 128) (H : Mat R' 128) (Wo : Mat 128 64) (bo : Vc 64) (p : Fin R) (p' : Fin R')
    (hh : ∀ j : Fin 128, h (ix2 p j) = H (ix2 p' j)) (e : Fin 64) :
    projAt h Wo bo p e = projAt H Wo bo p' e := by
  unfold projAt
  simp only [hh]

end Cert.Sage

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.Pay.lean ====
/-
  Each kernel body on one block of 5000 rows, read at an entry `(p, e)`.  A layer's body stores the layer's formula over
  the block's rows; the read-out's body stores the read-out's formula.  The matrix products into a zero accumulator are
  plain sums over the 128 input features, the change to a narrower float format on the way into them is the identity
  on extended reals, the column of counts repeated across the 128 columns reads row `p`'s one entry, and each
  per-feature vector laid as one row and repeated down the rows reads its entry `e`.
-/
import proofs.«175492_j62251255988403_1_alg».proof.Proof.Gen.KernelIdeal.Skeleton
import proofs.«175492_j62251255988403_1_alg».proof.Proof.Spec
import proofs.«175492_j62251255988403_1_alg».proof.Proof.LibDot
import proofs.«175492_j62251255988403_1_alg».proof.Proof.LibCols
import Idealize.ShloMosaic.Lib.ValueIdx
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.Sage

/-- A reciprocal square root at an index is that of the element. -/
theorem rsqrt_apply {s : Shape} {φ : FTy} (a : FVec Ideal s φ) (i : s.Idx) : rsqrt a i = Ideal.rsqrt (a i) := rfl

/-! ## Where the two products' dimension numbers send an output index and a contraction index -/

theorem d128_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem d128_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem d128_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem d64_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d64_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem d64_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem d64_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of rows times a 128-by-128 matrix, into the zero accumulator, at `(p, e)`. -/
theorem mm128 {φ₁ φ₂ : FTy} (A : FVec Ideal S5000x128 φ₁) (B : FVec Ideal S128x128 φ₂) (p : Fin 5000) (e : Fin 128) :
    matmul dot_S5000x128_S128x128_S5000x128_1_0_0_1_n_n none A B (constant S5000x128 .f32 0x00000000#32) (ix2 p e)
      = ∑ j : Fin 128, A (ix2 p j) * B (ix2 j e) :=
  Cert.LibDot.matmul_zero_apply dot_S5000x128_S128x128_S5000x128_1_0_0_1_n_n rfl rfl d128_l0 d128_l1 d128_r0 d128_r1 none A B p e

/-- A block of rows times a 128-by-64 matrix, into the zero accumulator, at `(p, e)`. -/
theorem mm64 {φ₁ φ₂ : FTy} (A : FVec Ideal S5000x128 φ₁) (B : FVec Ideal S128x64 φ₂) (p : Fin 5000) (e : Fin 64) :
    matmul dot_S5000x128_S128x64_S5000x64_1_0_0_1_n_n none A B (constant S5000x64 .f32 0x00000000#32) (ix2 p e)
      = ∑ j : Fin 128, A (ix2 p j) * B (ix2 j e) :=
  Cert.LibDot.matmul_zero_apply dot_S5000x128_S128x64_S5000x64_1_0_0_1_n_n rfl rfl d64_l0 d64_l1 d64_r0 d64_r1 none A B p e

/-- Layer 1's block payload at `(p, e)` is the layer's formula over the block. -/
theorem pay0_apply (cnt : FVec Ideal S5000x1 .f32) (agg h : FVec Ideal S5000x128 .f32) (Wl Wr : FVec Ideal S128x128 .f32)
    (bl g rv rm b : FVec Ideal S128 .f32) (p : Fin 5000) (e : Fin 128) :
    k0_pay1 (F := Ideal) (k0_pay2 (F := Ideal) cnt agg h Wl Wr bl g rv rm b) (Scalar.ofBits .f32 0x00000000#32) (ix2 p e)
      = layerAt h agg cnt Wl bl Wr g b rm rv p e := by
  unfold k0_pay1 k0_pay2 layerAt
  simp only [maximumf_apply, addf_apply, subf_apply, mulf_apply, broadcast_apply, mm128, truncf_apply, divf_apply,
    shapeCast_self, Cert.LibCols.col_bcast_apply, Cert.LibCols.bias_rows_apply, rsqrt_apply]
  rfl

/-- Layer 2's block payload at `(p, e)` is the layer's formula over the block. -/
theorem pay1_apply (cnt : FVec Ideal S5000x1 .f32) (agg h : FVec Ideal S5000x128 .f32) (Wl Wr : FVec Ideal S128x128 .f32)
    (bl g rv rm b : FVec Ideal S128 .f32) (p : Fin 5000) (e : Fin 128) :
    k1_pay1 (F := Ideal) (k1_pay2 (F := Ideal) cnt agg h Wl Wr bl g rv rm b) (ix2 p e)
      = layerAt h agg cnt Wl bl Wr g b rm rv p e := by
  unfold k1_pay1 k1_pay2 layerAt
  simp only [maximumf_apply, addf_apply, subf_apply, mulf_apply, broadcast_apply, mm128, truncf_apply, divf_apply,
    shapeCast_self, Cert.LibCols.col_bcast_apply, Cert.LibCols.bias_rows_apply, rsqrt_apply]
  rfl

/-- Layer 3's block payload at `(p, e)` is the layer's formula over the block. -/
theorem pay2_apply (cnt : FVec Ideal S5000x1 .f32) (agg h : FVec Ideal S5000x128 .f32) (Wl Wr : FVec Ideal S128x128 .f32)
    (bl g rv rm b : FVec Ideal S128 .f32) (p : Fin 5000) (e : Fin 128) :
    k2_pay1 (F := Ideal) (k2_pay2 (F := Ideal) cnt agg h Wl Wr bl g rv rm b) (ix2 p e)
      = layerAt h agg cnt Wl bl Wr g b rm rv p e := by
  unfold k2_pay1 k2_pay2 layerAt
  simp only [maximumf_apply, addf_apply, subf_apply, mulf_apply, broadcast_apply, mm128, truncf_apply, divf_apply,
    shapeCast_self, Cert.LibCols.col_bcast_apply, Cert.LibCols.bias_rows_apply, rsqrt_apply]
  rfl

/-- The read-out's block payload at `(p, e)` is the read-out's formula over the block. -/
theorem pay3_apply (h : FVec Ideal S5000x128 .f32) (Wo : FVec Ideal S128x64 .f32) (bo : FVec Ideal S64 .f32) (p : Fin 5000) (e : Fin 64) :
    k3_pay1 (F := Ideal) h Wo bo (ix2 p e) = projAt h Wo bo p e := by
  unfold k3_pay1 projAt
  simp only [addf_apply, mm64, truncf_apply, shapeCast_self, Cert.LibCols.bias_rows_apply]

end Cert.KernelIdeal.Pay

end
-- ==== Proof.Region0.lean ====
/-
  Layer 1's kernel region: ten grid points, point `t` taking rows `5000 t … 5000 t + 4999` of the features, of the
  neighbour sums and of the counts, and the whole of each parameter array, and writing the same rows of the output.
  Each point's written block is that block of the layer's formula over the WHOLE arrays (rows do not interact), and the
  ten blocks cover the output array, so the region leaves the layer's formula of the arrays it found.
-/
import proofs.«175492_j62251255988403_1_alg».proof.Proof.Gen.KernelIdeal.Frame
import proofs.«175492_j62251255988403_1_alg».proof.Proof.Spec
import proofs.«175492_j62251255988403_1_alg».proof.Proof.Rows
import proofs.«175492_j62251255988403_1_alg».proof.Proof.Pay
import Idealize.ShloMosaic.Lib.Pipeline.Value
import Idealize.ShloMosaic.Lib.Tactic

noncomputable section

namespace Cert.KernelIdeal.Region0

open Idealize.ShloMosaic Idealize.ShloMosaic.TcCoe Idealize.SL.Sem Idealize.ShloMosaic.ValueIdx
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-tiled windows sit at block `(t, 0)`, the parameter windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0 ∧ win0_9.index t (0 : Fin 1) = 0
    ∧ win0_10.index t (0 : Fin 2) = t.val ∧ win0_10.index t (1 : Fin 2) = 0 :=
  (by decide +kernel : ∀ t : Fin grid0.N, _)

/-- Row `p` of block `t` is row `5000 t + p` of the array. -/
def row (t : Fin cfg0.N) (p : Fin 5000) : Fin 50000 :=
  ⟨t.val * 5000 + p.val, by have h1 := t.isLt; have hN : cfg0.N = 10 := N_0; have h2 := p.isLt; omega⟩

/-! ## Each input window's block, read at an entry -/

theorem blk_h (c : Dev nD) (t : Fin cfg0.N) (p : Fin 5000) (j : Fin 128) :
    (iblk0 V c 0 t : FVec Ideal S5000x128 .f32) (ix2 p j) = (V c main_arg0 : Mat 50000 128) (ix2 (row t p) j) := by
  obtain ⟨e0, e1, -⟩ := idx_facts t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

theorem blk_agg (c : Dev nD) (t : Fin cfg0.N) (p : Fin 5000) (j : Fin 128) :
    (iblk0 V c 1 t : FVec Ideal S5000x128 .f32) (ix2 p j) = (V c main_v18 : Mat 50000 128) (ix2 (row t p) j) := by
  obtain ⟨-, -, e0, e1, -⟩ := idx_facts t
  unfold iblk0
  rw [View.read_apply]
  show V c main_v18 _ = V c main_v18 _
  refine congrArg (V c main_v18) ?_
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * j.val = j.val; rw [e1]; omega

theorem blk_cnt (c : Dev nD) (t : Fin cfg0.N) (p : Fin 5000) :
    (iblk0 V c 2 t : FVec Ideal S5000x1 .f32) (ix2 p (0 : Fin 1)) = (V c main_v8 : Mat 50000 1) (ix2 (row t p) (0 : Fin 1)) := by
  obtain ⟨-, -, -, -, e0, e1, -⟩ := idx_facts t
  unfold iblk0
  rw [View.read_apply]
  show V c main_v8 _ = V c main_v8 _
  refine congrArg (V c main_v8) ?_
  funext a; apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- A parameter window's block is its whole array. -/
theorem blk_Wl (c : Dev nD) (t : Fin cfg0.N) : (iblk0 V c 3 t : FVec Ideal S128x128 .f32) = V c main_arg2 := by
  obtain ⟨-, -, -, -, -, -, e0, e1, -⟩ := idx_facts t
  funext y
  unfold iblk0
  rw [View.read_apply]
  show V c main_arg2 _ = V c main_arg2 y
  refine congrArg (V c main_arg2) ?_
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk_Wr (c : Dev nD) (t : Fin cfg0.N) : (iblk0 V c 5 t : FVec Ideal S128x128 .f32) = V c main_arg4 := by
  obtain ⟨-, -, -, -, -, -, -, -, -, e0, e1, -⟩ := idx_facts t
  funext y
  unfold iblk0
  rw [View.read_apply]
  show V c main_arg4 _ = V c main_arg4 y
  refine congrArg (V c main_arg4) ?_
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem blk_bl (c : Dev nD) (t : Fin cfg0.N) : (iblk0 V c 4 t : FVec Ideal S128 .f32) = V c main_arg3 := by
  have e0 : win0_4.index t (0 : Fin 1) = 0 := by
    obtain ⟨-, -, -, -, -, -, -, -, f4, -, -, f6, f7, f8, f9, -⟩ := idx_facts t
    exact f4
  funext y
  unfold iblk0
  rw [View.read_apply]
  show V c main_arg3 _ = V c main_arg3 y
  refine congrArg (V c main_arg3) ?_
  funext a; apply Fin.ext
  match a with
  | ⟨0, _⟩ => show win0_4.index t (0 : Fin 1) * 128 + 1 * (y 0).val = (y 0).val; rw [e0]; omega

theorem blk_g (c : Dev nD) (t : Fin cfg0.N) : (iblk0 V c 6 t : FVec Ideal S128 .f32) = V c main_arg5 := by
  have e0 : win0_6.index t (0 : Fin 1) = 0 := by
    obtain ⟨-, -, -, -, -, -, -, -, f4, -, -, f6, f7, f8, f9, -⟩ := idx_facts t
    exact f6
  funext y
  unfold iblk0
  rw [View.read_apply]
  show V c main_arg5 _ = V c main_arg5 y
  refine congrArg (V c main_arg5) ?_
  funext a; apply Fin.ext
  match a with
  | ⟨0, _⟩ => show win0_6.index t (0 : Fin 1) * 128 + 1 * (y 0).val = (y 0).val; rw [e0]; omega

theorem blk_b (c : Dev nD) (t : Fin cfg0.N) : (iblk0 V c 7 t : FVec Ideal S128 .f32) = V c main_arg6 := by
  have e0 : win0_7.index t (0 : Fin 1) = 0 := by
    obtain ⟨-, -, -, -, -, -, -, -, f4, -, -, f6, f7, f8, f9, -⟩ := idx_facts t
    exact f7
  funext y
  unfold iblk0
  rw [View.read_apply]
  show V c main_arg6 _ = V c main_arg6 y
  refine congrArg (V c main_arg6) ?_
  funext a; apply Fin.ext
  match a with
  | ⟨0, _⟩ => show win0_7.index t (0 : Fin 1) * 128 + 1 * (y 0).val = (y 0).val; rw [e0]; omega

theorem blk_rm (c : Dev nD) (t : Fin cfg0.N) : (iblk0 V c 8 t : FVec Ideal S128 .f32) = V c main_arg7 := by
  have e0 : win0_8.index t (0 : Fin 1) = 0 := by
    obtain ⟨-, -, -, -, -, -, -, -, f4, -, -, f6, f7, f8, f9, -⟩ := idx_facts t
    exact f8
  funext y
  unfold iblk0
  rw [View.read_apply]
  show V c main_arg7 _ = V c main_arg7 y
  refine congrArg (V c main_arg7) ?_
  funext a; apply Fin.ext
  match a with
  | ⟨0, _⟩ => show win0_8.index t (0 : Fin 1) * 128 + 1 * (y 0).val = (y 0).val; rw [e0]; omega

theorem blk_rv (c : Dev nD) (t : Fin cfg0.N) : (iblk0 V c 9 t : FVec Ideal S128 .f32) = V c main_arg8 := by
  have e0 : win0_9.index t (0 : Fin 1) = 0 := by
    obtain ⟨-, -, -, -, -, -, -, -, f4, -, -, f6, f7, f8, f9, -⟩ := idx_facts t
    exact f9
  funext y
  unfold iblk0
  rw [View.read_apply]
  show V c main_arg8 _ = V c main_arg8 y
  refine congrArg (V c main_arg8) ?_
  funext a; apply Fin.ext
  match a with
  | ⟨0, _⟩ => show win0_9.index t (0 : Fin 1) * 128 + 1 * (y 0).val = (y 0).val; rw [e0]; omega

/-! ## What a point writes back, and the cover -/

/-- The output block's entry `(p, e)` sits at `(5000 t + p, e)` in the array. -/
theorem emb_out (t : Fin cfg0.N) (p : Fin 5000) (e : Fin 128) :
    ((cfg0.win 10).blk t).view.emb (ix2 p e) = (ix2 (row t p) e : S50000x128.Idx) := by
  obtain ⟨-, -, -, -, -, -, -, -, -, -, -, -, -, -, -, e0, e1⟩ := idx_facts t
  funext a; apply Fin.ext
  match a with
  | ⟨0, _⟩ => show win0_10.index t (0 : Fin 2) * 5000 + 1 * p.val = t.val * 5000 + p.val; rw [e0]; omega
  | ⟨1, _⟩ => show win0_10.index t (1 : Fin 2) * 128 + 1 * e.val = e.val; rw [e1]; omega

/-- What point `t` writes back is block `t` of the layer's formula over the arrays the region found. -/
theorem flushed_eq (c : Dev nD) (t : Fin cfg0.N) :
    (dat0 V c).flushed 10 t = ((cfg0.win 10).blk t).view.read (Elt Ideal)
      (layer (V c main_arg0) (V c main_v18) (V c main_v8) (V c main_arg2) (V c main_arg3) (V c main_arg4) (V c main_arg5) (V c main_arg6) (V c main_arg7) (V c main_arg8)) := by
  show (cfg0.win 10).cut (grid0.coords t) ((dat0 V c).after 10 t) = _
  rw [after0_10]
  unfold out0_10
  rw [View.canon_unit_zero hz]
  simp only [View.ld_unit_zero (S := S5000x128) hz, View.ld_unit_zero (S := S5000x1) hz, View.ld_unit_zero (S := S128x128) hz,
    View.ld_unit_zero (S := S128) hz1]
  rw [blk_Wl V c t, blk_Wr V c t, blk_bl V c t, blk_g V c t, blk_b V c t, blk_rm V c t, blk_rv V c t]
  funext j
  obtain ⟨p, e, rfl⟩ : ∃ (p : Fin 5000) (e : Fin 128), j = ix2 p e := ⟨j 0, j 1, eq_ix2 j⟩
  show k0_pay1 (F := Ideal) (k0_pay2 (F := Ideal) (iblk0 V c 2 t) (iblk0 V c 1 t) (iblk0 V c 0 t) (V c main_arg2) (V c main_arg4) (V c main_arg3) (V c main_arg5) (V c main_arg8) (V c main_arg7) (V c main_arg6)) (Scalar.ofBits .f32 0x00000000#32) (ix2 p e)
    = (layer (V c main_arg0) (V c main_v18) (V c main_v8) (V c main_arg2) (V c main_arg3) (V c main_arg4) (V c main_arg5) (V c main_arg6) (V c main_arg7) (V c main_arg8)) (((cfg0.win 10).blk t).view.emb (ix2 p e))
  rw [emb_out t p e, layer_apply]
  refine (Pay.pay0_apply (iblk0 V c 2 t) (iblk0 V c 1 t) (iblk0 V c 0 t) (V c main_arg2) (V c main_arg4) (V c main_arg3) (V c main_arg5) (V c main_arg8) (V c main_arg7) (V c main_arg6) p e).trans ?_
  exact layerAt_rows (iblk0 V c 0 t) (iblk0 V c 1 t) (iblk0 V c 2 t) (V c main_arg0) (V c main_v18) (V c main_v8) (V c main_arg2) (V c main_arg3) (V c main_arg4) (V c main_arg5) (V c main_arg6) (V c main_arg7) (V c main_arg8) p (row t p)
    (blk_h V c t p) (blk_agg V c t p) (blk_cnt V c t p) e

/-- An index of the output array is in point `t`'s block iff each coordinate is in the block's range on its axis. -/
theorem mem_blk (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v19).slice (win0_10.rect t)).set ↔ _
  rw [View.set_slice_whole, Rect.mem_set_unit]
  exact Iff.rfl

/-- The region leaves the layer's formula of the arrays it found: row `r` of the output is written by point `r / 5000`. -/
theorem final (c : Dev nD) : (dat0 V c).arrAt 10 cfg0.N
    = layer (V c main_arg0) (V c main_v18) (V c main_v8) (V c main_arg2) (V c main_arg3) (V c main_arg4) (V c main_arg5) (V c main_arg6) (V c main_arg7) (V c main_arg8) :=
  (dat0 V c).arrAt_eq_of_cover 10 (layer (V c main_arg0) (V c main_v18) (V c main_v8) (V c main_arg2) (V c main_arg3) (V c main_arg4) (V c main_arg5) (V c main_arg6) (V c main_arg7) (V c main_arg8))
    (fun t _ => flushed_eq V c t) fun i => by
      have hi0 : (i 0).val < 50000 := (i 0).isLt
      have hi1 : (i 1).val < 128 := (i 1).isLt
      have hN : cfg0.N = 10 := N_0
      obtain ⟨t, ht⟩ : ∃ t : Fin cfg0.N, t.val = (i 0).val / 5000 := ⟨⟨(i 0).val / 5000, by omega⟩, rfl⟩
      obtain ⟨-, -, -, -, -, -, -, -, -, -, -, -, -, -, -, e0, e1⟩ := idx_facts t
      refine ⟨t, flush0_10 t, ?_⟩
      rw [mem_blk]
      intro a
      match a with
      | ⟨0, _⟩ =>
        show win0_10.index t (0 : Fin 2) * 5000 ≤ (i 0).val ∧ (i 0).val < win0_10.index t (0 : Fin 2) * 5000 + 5000
        rw [e0, ht]; omega
      | ⟨1, _⟩ =>
        show win0_10.index t (1 : Fin 2) * 128 ≤ (i 1).val ∧ (i 1).val < win0_10.index t (1 : Fin 2) * 128 + 128
        rw [e1]; omega

end Cert.KernelIdeal.Region0

end
-- ==== Proof.Region1.lean ====
/-
  Layer 2's kernel region: ten grid points, point `t` taking rows `5000 t … 5000 t + 4999` of the features, of the
  neighbour sums and of the counts, and the whole of each parameter array, and writing the same rows of the output.
  Each point's written block is that block of the layer's formula over the WHOLE arrays (rows do not interact), and the
  ten blocks cover the output array, so the region leaves the layer's formula of the arrays it found.
-/
import proofs.«175492_j62251255988403_1_alg».proof.Proof.Gen.KernelIdeal.Frame
import proofs.«175492_j62251255988403_1_alg».proof.Proof.Spec
import proofs.«175492_j62251255988403_1_alg».proof.Proof.Rows
import proofs.«175492_j62251255988403_1_alg».proof.Proof.Pay
import Idealize.ShloMosaic.Lib.Pipeline.Value
import Idealize.ShloMosaic.Lib.Tactic

noncomputable section

namespace Cert.KernelIdeal.Region1

open Idealize.ShloMosaic Idealize.ShloMosaic.TcCoe Idealize.SL.Sem Idealize.ShloMosaic.ValueIdx
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-tiled windows sit at block `(t, 0)`, the parameter windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0 ∧ win1_9.index t (0 : Fin 1) = 0
    ∧ win1_10.index t (0 : Fin 2) = t.val ∧ win1_10.index t (1 : Fin 2) = 0 :=
  (by decide +kernel : ∀ t : Fin grid1.N, _)

/-- Row `p` of block `t` is row `5000 t + p` of the array. -/
def row (t : Fin cfg1.N) (p : Fin 5000) : Fin 50000 :=
  ⟨t.val * 5000 + p.val, by have h1 := t.isLt; have hN : cfg1.N = 10 := N_1; have h2 := p.isLt; omega⟩

/-! ## Each input window's block, read at an entry -/

theorem blk_h (c : Dev nD) (t : Fin cfg1.N) (p : Fin 5000) (j : Fin 128) :
    (iblk1 V c 0 t : FVec Ideal S5000x128 .f32) (ix2 p j) = (V c main_v19 : Mat 50000 128) (ix2 (row t p) j) := by
  obtain ⟨e0, e1, -⟩ := idx_facts t
  unfold iblk1
  rw [View.read_apply]
  show V c main_v19 _ = V c main_v19 _
  refine congrArg (V c main_v19) ?_
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

theorem blk_agg (c : Dev nD) (t : Fin cfg1.N) (p : Fin 5000) (j : Fin 128) :
    (iblk1 V c 1 t : FVec Ideal S5000x128 .f32) (ix2 p j) = (V c main_v29 : Mat 50000 128) (ix2 (row t p) j) := by
  obtain ⟨-, -, e0, e1, -⟩ := idx_facts t
  unfold iblk1
  rw [View.read_apply]
  show V c main_v29 _ = V c main_v29 _
  refine congrArg (V c main_v29) ?_
  funext a; apply Fin.ext
  match a with
  | ⟨0, _⟩ => show win1_1.index t (0 : Fin 2) * 5000 + 1 * p.val = t.val * 5000 + p.val; rw [e0]; omega
  | ⟨1, _⟩ => show win1_1.index t (1 : Fin 2) * 128 + 1 * j.val = j.val; rw [e1]; omega

theorem blk_cnt (c : Dev nD) (t : Fin cfg1.N) (p : Fin 5000) :
    (iblk1 V c 2 t : FVec Ideal S5000x1 .f32) (ix2 p (0 : Fin 1)) = (V c main_v8 : Mat 50000 1) (ix2 (row t p) (0 : Fin 1)) := by
  obtain ⟨-, -, -, -, e0, e1, -⟩ := idx_facts t
  unfold iblk1
  rw [View.read_apply]
  show V c main_v8 _ = V c main_v8 _
  refine congrArg (V c main_v8) ?_
  funext a; apply Fin.ext
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

/-- A parameter window's block is its whole array. -/
theorem blk_Wl (c : Dev nD) (t : Fin cfg1.N) : (iblk1 V c 3 t : FVec Ideal S128x128 .f32) = V c main_arg9 := by
  obtain ⟨-, -, -, -, -, -, e0, e1, -⟩ := idx_facts t
  funext y
  unfold iblk1
  rw [View.read_apply]
  show V c main_arg9 _ = V c main_arg9 y
  refine congrArg (V c main_arg9) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blk_Wr (c : Dev nD) (t : Fin cfg1.N) : (iblk1 V c 5 t : FVec Ideal S128x128 .f32) = V c main_arg11 := by
  obtain ⟨-, -, -, -, -, -, -, -, -, e0, e1, -⟩ := idx_facts t
  funext y
  unfold iblk1
  rw [View.read_apply]
  show V c main_arg11 _ = V c main_arg11 y
  refine congrArg (V c main_arg11) ?_
  funext a; apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem blk_bl (c : Dev nD) (t : Fin cfg1.N) : (iblk1 V c 4 t : FVec Ideal S128 .f32) = V c main_arg10 := by
  have e0 : win1_4.index t (0 : Fin 1) = 0 := by
    obtain ⟨-, -, -, -, -, -, -, -, f4, -, -, f6, f7, f8, f9, -⟩ := idx_facts t
    exact f4
  funext y
  unfold iblk1
  rw [View.read_apply]
  show V c main_arg10 _ = V c main_arg10 y
  refine congrArg (V c main_arg10) ?_
  funext a; apply Fin.ext
  match a with
  | ⟨0, _⟩ => show win1_4.index t (0 : Fin 1) * 128 + 1 * (y 0).val = (y 0).val; rw [e0]; omega

theorem blk_g (c : Dev nD) (t : Fin cfg1.N) : (iblk1 V c 6 t : FVec Ideal S128 .f32) = V c main_arg12 := by
  have e0 : win1_6.index t (0 : Fin 1) = 0 := by
    obtain ⟨-, -, -, -, -, -, -, -, f4, -, -, f6, f7, f8, f9, -⟩ := idx_facts t
    exact f6
  funext y
  unfold iblk1
  rw [View.read_apply]
  show V c main_arg12 _ = V c main_arg12 y
  refine congrArg (V c main_arg12) ?_
  funext a; apply Fin.ext
  match a with
  | ⟨0, _⟩ => show win1_6.index t (0 : Fin 1) * 128 + 1 * (y 0).val = (y 0).val; rw [e0]; omega

theorem blk_b (c : Dev nD) (t : Fin cfg1.N) : (iblk1 V c 7 t : FVec Ideal S128 .f32) = V c main_arg13 := by
  have e0 : win1_7.index t (0 : Fin 1) = 0 := by
    obtain ⟨-, -, -, -, -, -, -, -, f4, -, -, f6, f7, f8, f9, -⟩ := idx_facts t
    exact f7
  funext y
  unfold iblk1
  rw [View.read_apply]
  show V c main_arg13 _ = V c main_arg13 y
  refine congrArg (V c main_arg13) ?_
  funext a; apply Fin.ext
  match a with
  | ⟨0, _⟩ => show win1_7.index t (0 : Fin 1) * 128 + 1 * (y 0).val = (y 0).val; rw [e0]; omega

theorem blk_rm (c : Dev nD) (t : Fin cfg1.N) : (iblk1 V c 8 t : FVec Ideal S128 .f32) = V c main_arg14 := by
  have e0 : win1_8.index t (0 : Fin 1) = 0 := by
    obtain ⟨-, -, -, -, -, -, -, -, f4, -, -, f6, f7, f8, f9, -⟩ := idx_facts t
    exact f8
  funext y
  unfold iblk1
  rw [View.read_apply]
  show V c main_arg14 _ = V c main_arg14 y
  refine congrArg (V c main_arg14) ?_
  funext a; apply Fin.ext
  match a with
  | ⟨0, _⟩ => show win1_8.index t (0 : Fin 1) * 128 + 1 * (y 0).val = (y 0).val; rw [e0]; omega

theorem blk_rv (c : Dev nD) (t : Fin cfg1.N) : (iblk1 V c 9 t : FVec Ideal S128 .f32) = V c main_arg15 := by
  have e0 : win1_9.index t (0 : Fin 1) = 0 := by
    obtain ⟨-, -, -, -, -, -, -, -, f4, -, -, f6, f7, f8, f9, -⟩ := idx_facts t
    exact f9
  funext y
  unfold iblk1
  rw [View.read_apply]
  show V c main_arg15 _ = V c main_arg15 y
  refine congrArg (V c main_arg15) ?_
  funext a; apply Fin.ext
  match a with
  | ⟨0, _⟩ => show win1_9.index t (0 : Fin 1) * 128 + 1 * (y 0).val = (y 0).val; rw [e0]; omega

/-! ## What a point writes back, and the cover -/

/-- The output block's entry `(p, e)` sits at `(5000 t + p, e)` in the array. -/
theorem emb_out (t : Fin cfg1.N) (p : Fin 5000) (e : Fin 128) :
    ((cfg1.win 10).blk t).view.emb (ix2 p e) = (ix2 (row t p) e : S50000x128.Idx) := by
  obtain ⟨-, -, -, -, -, -, -, -, -, -, -, -, -, -, -, e0, e1⟩ := idx_facts t
  funext a; apply Fin.ext
  match a with
  | ⟨0, _⟩ => show win1_10.index t (0 : Fin 2) * 5000 + 1 * p.val = t.val * 5000 + p.val; rw [e0]; omega
  | ⟨1, _⟩ => show win1_10.index t (1 : Fin 2) * 128 + 1 * e.val = e.val; rw [e1]; omega

/-- What point `t` writes back is block `t` of the layer's formula over the arrays the region found. -/
theorem flushed_eq (c : Dev nD) (t : Fin cfg1.N) :
    (dat1 V c).flushed 10 t = ((cfg1.win 10).blk t).view.read (Elt Ideal)
      (layer (V c main_v19) (V c main_v29) (V c main_v8) (V c main_arg9) (V c main_arg10) (V c main_arg11) (V c main_arg12) (V c main_arg13) (V c main_arg14) (V c main_arg15)) := by
  show (cfg1.win 10).cut (grid1.coords t) ((dat1 V c).after 10 t) = _
  rw [after1_10]
  unfold out1_10
  rw [View.canon_unit_zero hz]
  simp only [View.ld_unit_zero (S := S5000x128) hz, View.ld_unit_zero (S := S5000x1) hz, View.ld_unit_zero (S := S128x128) hz,
    View.ld_unit_zero (S := S128) hz1]
  rw [blk_Wl V c t, blk_Wr V c t, blk_bl V c t, blk_g V c t, blk_b V c t, blk_rm V c t, blk_rv V c t]
  funext j
  obtain ⟨p, e, rfl⟩ : ∃ (p : Fin 5000) (e : Fin 128), j = ix2 p e := ⟨j 0, j 1, eq_ix2 j⟩
  show k1_pay1 (F := Ideal) (k1_pay2 (F := Ideal) (iblk1 V c 2 t) (iblk1 V c 1 t) (iblk1 V c 0 t) (V c main_arg9) (V c main_arg11) (V c main_arg10) (V c main_arg12) (V c main_arg15) (V c main_arg14) (V c main_arg13)) (ix2 p e)
    = (layer (V c main_v19) (V c main_v29) (V c main_v8) (V c main_arg9) (V c main_arg10) (V c main_arg11) (V c main_arg12) (V c main_arg13) (V c main_arg14) (V c main_arg15)) (((cfg1.win 10).blk t).view.emb (ix2 p e))
  rw [emb_out t p e, layer_apply]
  refine (Pay.pay1_apply (iblk1 V c 2 t) (iblk1 V c 1 t) (iblk1 V c 0 t) (V c main_arg9) (V c main_arg11) (V c main_arg10) (V c main_arg12) (V c main_arg15) (V c main_arg14) (V c main_arg13) p e).trans ?_
  exact layerAt_rows (iblk1 V c 0 t) (iblk1 V c 1 t) (iblk1 V c 2 t) (V c main_v19) (V c main_v29) (V c main_v8) (V c main_arg9) (V c main_arg10) (V c main_arg11) (V c main_arg12) (V c main_arg13) (V c main_arg14) (V c main_arg15) p (row t p)
    (blk_h V c t p) (blk_agg V c t p) (blk_cnt V c t p) e

/-- An index of the output array is in point `t`'s block iff each coordinate is in the block's range on its axis. -/
theorem mem_blk (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v30).slice (win1_10.rect t)).set ↔ _
  rw [View.set_slice_whole, Rect.mem_set_unit]
  exact Iff.rfl

/-- The region leaves the layer's formula of the arrays it found: row `r` of the output is written by point `r / 5000`. -/
theorem final (c : Dev nD) : (dat1 V c).arrAt 10 cfg1.N
    = layer (V c main_v19) (V c main_v29) (V c main_v8) (V c main_arg9) (V c main_arg10) (V c main_arg11) (V c main_arg12) (V c main_arg13) (V c main_arg14) (V c main_arg15) :=
  (dat1 V c).arrAt_eq_of_cover 10 (layer (V c main_v19) (V c main_v29) (V c main_v8) (V c main_arg9) (V c main_arg10) (V c main_arg11) (V c main_arg12) (V c main_arg13) (V c main_arg14) (V c main_arg15))
    (fun t _ => flushed_eq V c t) fun i => by
      have hi0 : (i 0).val < 50000 := (i 0).isLt
      have hi1 : (i 1).val < 128 := (i 1).isLt
      have hN : cfg1.N = 10 := N_1
      obtain ⟨t, ht⟩ : ∃ t : Fin cfg1.N, t.val = (i 0).val / 5000 := ⟨⟨(i 0).val / 5000, by omega⟩, rfl⟩
      obtain ⟨-, -, -, -, -, -, -, -, -, -, -, -, -, -, -, e0, e1⟩ := idx_facts t
      refine ⟨t, flush1_10 t, ?_⟩
      rw [mem_blk]
      intro a
      match a with
      | ⟨0, _⟩ =>
        show win1_10.index t (0 : Fin 2) * 5000 ≤ (i 0).val ∧ (i 0).val < win1_10.index t (0 : Fin 2) * 5000 + 5000
        rw [e0, ht]; omega
      | ⟨1, _⟩ =>
        show win1_10.index t (1 : Fin 2) * 128 ≤ (i 1).val ∧ (i 1).val < win1_10.index t (1 : Fin 2) * 128 + 128
        rw [e1]; omega

end Cert.KernelIdeal.Region1

end
-- ==== Proof.Region2.lean ====
/-
  Layer 3's kernel region: ten grid points, point `t` taking rows `5000 t … 5000 t + 4999` of the features, of the
  neighbour sums and of the counts, and the whole of each parameter array, and writing the same rows of the output.
  Each point's written block is that block of the layer's formula over the WHOLE arrays (rows do not interact), and the
  ten blocks cover the output array, so the region leaves the layer's formula of the arrays it found.
-/
import proofs.«175492_j62251255988403_1_alg».proof.Proof.Gen.KernelIdeal.Frame
import proofs.«175492_j62251255988403_1_alg».proof.Proof.Spec
import proofs.«175492_j62251255988403_1_alg».proof.Proof.Rows
import proofs.«175492_j62251255988403_1_alg».proof.Proof.Pay
import Idealize.ShloMosaic.Lib.Pipeline.Value
import Idealize.ShloMosaic.Lib.Tactic

noncomputable section

namespace Cert.KernelIdeal.Region2

open Idealize.ShloMosaic Idealize.ShloMosaic.TcCoe Idealize.SL.Sem Idealize.ShloMosaic.ValueIdx
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-tiled windows sit at block `(t, 0)`, the parameter windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0 ∧ win2_7.index t (0 : Fin 1) = 0 ∧ win2_8.index t (0 : Fin 1) = 0 ∧ win2_9.index t (0 : Fin 1) = 0
    ∧ win2_10.index t (0 : Fin 2) = t.val ∧ win2_10.index t (1 : Fin 2) = 0 :=
  (by decide +kernel : ∀ t : Fin grid2.N, _)

/-- Row `p` of block `t` is row `5000 t + p` of the array. -/
def row (t : Fin cfg2.N) (p : Fin 5000) : Fin 50000 :=
  ⟨t.val * 5000 + p.val, by have h1 := t.isLt; have hN : cfg2.N = 10 := N_2; have h2 := p.isLt; omega⟩

/-! ## Each input window's block, read at an entry -/

theorem blk_h (c : Dev nD) (t : Fin cfg2.N) (p : Fin 5000) (j : Fin 128) :
    (iblk2 V c 0 t : FVec Ideal S5000x128 .f32) (ix2 p j) = (V c main_v30 : Mat 50000 128) (ix2 (row t p) j) := by
  obtain ⟨e0, e1, -⟩ := idx_facts t
  unfold iblk2
  rw [View.read_apply]
  show V c main_v30 _ = V c main_v30 _
  refine congrArg (V c main_v30) ?_
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * j.val = j.val; rw [e1]; omega

theorem blk_agg (c : Dev nD) (t : Fin cfg2.N) (p : Fin 5000) (j : Fin 128) :
    (iblk2 V c 1 t : FVec Ideal S5000x128 .f32) (ix2 p j) = (V c main_v40 : Mat 50000 128) (ix2 (row t p) j) := by
  obtain ⟨-, -, e0, e1, -⟩ := idx_facts t
  unfold iblk2
  rw [View.read_apply]
  show V c main_v40 _ = V c main_v40 _
  refine congrArg (V c main_v40) ?_
  funext a; apply Fin.ext
  match a with
  | ⟨0, _⟩ => show win2_1.index t (0 : Fin 2) * 5000 + 1 * p.val = t.val * 5000 + p.val; rw [e0]; omega
  | ⟨1, _⟩ => show win2_1.index t (1 : Fin 2) * 128 + 1 * j.val = j.val; rw [e1]; omega

theorem blk_cnt (c : Dev nD) (t : Fin cfg2.N) (p : Fin 5000) :
    (iblk2 V c 2 t : FVec Ideal S5000x1 .f32) (ix2 p (0 : Fin 1)) = (V c main_v8 : Mat 50000 1) (ix2 (row t p) (0 : Fin 1)) := by
  obtain ⟨-, -, -, -, e0, e1, -⟩ := idx_facts t
  unfold iblk2
  rw [View.read_apply]
  show V c main_v8 _ = V c main_v8 _
  refine congrArg (V c main_v8) ?_
  funext a; apply Fin.ext
  match a with
  | ⟨0, _⟩ => show win2_2.index t (0 : Fin 2) * 5000 + 1 * p.val = t.val * 5000 + p.val; rw [e0]; omega
  | ⟨1, _⟩ => show win2_2.index t (1 : Fin 2) * 1 + 1 * 0 = 0; rw [e1]

/-- A parameter window's block is its whole array. -/
theorem blk_Wl (c : Dev nD) (t : Fin cfg2.N) : (iblk2 V c 3 t : FVec Ideal S128x128 .f32) = V c main_arg16 := by
  obtain ⟨-, -, -, -, -, -, e0, e1, -⟩ := idx_facts t
  funext y
  unfold iblk2
  rw [View.read_apply]
  show V c main_arg16 _ = V c main_arg16 y
  refine congrArg (V c main_arg16) ?_
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem blk_Wr (c : Dev nD) (t : Fin cfg2.N) : (iblk2 V c 5 t : FVec Ideal S128x128 .f32) = V c main_arg18 := by
  obtain ⟨-, -, -, -, -, -, -, -, -, e0, e1, -⟩ := idx_facts t
  funext y
  unfold iblk2
  rw [View.read_apply]
  show V c main_arg18 _ = V c main_arg18 y
  refine congrArg (V c main_arg18) ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem blk_bl (c : Dev nD) (t : Fin cfg2.N) : (iblk2 V c 4 t : FVec Ideal S128 .f32) = V c main_arg17 := by
  have e0 : win2_4.index t (0 : Fin 1) = 0 := by
    obtain ⟨-, -, -, -, -, -, -, -, f4, -, -, f6, f7, f8, f9, -⟩ := idx_facts t
    exact f4
  funext y
  unfold iblk2
  rw [View.read_apply]
  show V c main_arg17 _ = V c main_arg17 y
  refine congrArg (V c main_arg17) ?_
  funext a; apply Fin.ext
  match a with
  | ⟨0, _⟩ => show win2_4.index t (0 : Fin 1) * 128 + 1 * (y 0).val = (y 0).val; rw [e0]; omega

theorem blk_g (c : Dev nD) (t : Fin cfg2.N) : (iblk2 V c 6 t : FVec Ideal S128 .f32) = V c main_arg19 := by
  have e0 : win2_6.index t (0 : Fin 1) = 0 := by
    obtain ⟨-, -, -, -, -, -, -, -, f4, -, -, f6, f7, f8, f9, -⟩ := idx_facts t
    exact f6
  funext y
  unfold iblk2
  rw [View.read_apply]
  show V c main_arg19 _ = V c main_arg19 y
  refine congrArg (V c main_arg19) ?_
  funext a; apply Fin.ext
  match a with
  | ⟨0, _⟩ => show win2_6.index t (0 : Fin 1) * 128 + 1 * (y 0).val = (y 0).val; rw [e0]; omega

theorem blk_b (c : Dev nD) (t : Fin cfg2.N) : (iblk2 V c 7 t : FVec Ideal S128 .f32) = V c main_arg20 := by
  have e0 : win2_7.index t (0 : Fin 1) = 0 := by
    obtain ⟨-, -, -, -, -, -, -, -, f4, -, -, f6, f7, f8, f9, -⟩ := idx_facts t
    exact f7
  funext y
  unfold iblk2
  rw [View.read_apply]
  show V c main_arg20 _ = V c main_arg20 y
  refine congrArg (V c main_arg20) ?_
  funext a; apply Fin.ext
  match a with
  | ⟨0, _⟩ => show win2_7.index t (0 : Fin 1) * 128 + 1 * (y 0).val = (y 0).val; rw [e0]; omega

theorem blk_rm (c : Dev nD) (t : Fin cfg2.N) : (iblk2 V c 8 t : FVec Ideal S128 .f32) = V c main_arg21 := by
  have e0 : win2_8.index t (0 : Fin 1) = 0 := by
    obtain ⟨-, -, -, -, -, -, -, -, f4, -, -, f6, f7, f8, f9, -⟩ := idx_facts t
    exact f8
  funext y
  unfold iblk2
  rw [View.read_apply]
  show V c main_arg21 _ = V c main_arg21 y
  refine congrArg (V c main_arg21) ?_
  funext a; apply Fin.ext
  match a with
  | ⟨0, _⟩ => show win2_8.index t (0 : Fin 1) * 128 + 1 * (y 0).val = (y 0).val; rw [e0]; omega

theorem blk_rv (c : Dev nD) (t : Fin cfg2.N) : (iblk2 V c 9 t : FVec Ideal S128 .f32) = V c main_arg22 := by
  have e0 : win2_9.index t (0 : Fin 1) = 0 := by
    obtain ⟨-, -, -, -, -, -, -, -, f4, -, -, f6, f7, f8, f9, -⟩ := idx_facts t
    exact f9
  funext y
  unfold iblk2
  rw [View.read_apply]
  show V c main_arg22 _ = V c main_arg22 y
  refine congrArg (V c main_arg22) ?_
  funext a; apply Fin.ext
  match a with
  | ⟨0, _⟩ => show win2_9.index t (0 : Fin 1) * 128 + 1 * (y 0).val = (y 0).val; rw [e0]; omega

/-! ## What a point writes back, and the cover -/

/-- The output block's entry `(p, e)` sits at `(5000 t + p, e)` in the array. -/
theorem emb_out (t : Fin cfg2.N) (p : Fin 5000) (e : Fin 128) :
    ((cfg2.win 10).blk t).view.emb (ix2 p e) = (ix2 (row t p) e : S50000x128.Idx) := by
  obtain ⟨-, -, -, -, -, -, -, -, -, -, -, -, -, -, -, e0, e1⟩ := idx_facts t
  funext a; apply Fin.ext
  match a with
  | ⟨0, _⟩ => show win2_10.index t (0 : Fin 2) * 5000 + 1 * p.val = t.val * 5000 + p.val; rw [e0]; omega
  | ⟨1, _⟩ => show win2_10.index t (1 : Fin 2) * 128 + 1 * e.val = e.val; rw [e1]; omega

/-- What point `t` writes back is block `t` of the layer's formula over the arrays the region found. -/
theorem flushed_eq (c : Dev nD) (t : Fin cfg2.N) :
    (dat2 V c).flushed 10 t = ((cfg2.win 10).blk t).view.read (Elt Ideal)
      (layer (V c main_v30) (V c main_v40) (V c main_v8) (V c main_arg16) (V c main_arg17) (V c main_arg18) (V c main_arg19) (V c main_arg20) (V c main_arg21) (V c main_arg22)) := by
  show (cfg2.win 10).cut (grid2.coords t) ((dat2 V c).after 10 t) = _
  rw [after2_10]
  unfold out2_10
  rw [View.canon_unit_zero hz]
  simp only [View.ld_unit_zero (S := S5000x128) hz, View.ld_unit_zero (S := S5000x1) hz, View.ld_unit_zero (S := S128x128) hz,
    View.ld_unit_zero (S := S128) hz1]
  rw [blk_Wl V c t, blk_Wr V c t, blk_bl V c t, blk_g V c t, blk_b V c t, blk_rm V c t, blk_rv V c t]
  funext j
  obtain ⟨p, e, rfl⟩ : ∃ (p : Fin 5000) (e : Fin 128), j = ix2 p e := ⟨j 0, j 1, eq_ix2 j⟩
  show k2_pay1 (F := Ideal) (k2_pay2 (F := Ideal) (iblk2 V c 2 t) (iblk2 V c 1 t) (iblk2 V c 0 t) (V c main_arg16) (V c main_arg18) (V c main_arg17) (V c main_arg19) (V c main_arg22) (V c main_arg21) (V c main_arg20)) (ix2 p e)
    = (layer (V c main_v30) (V c main_v40) (V c main_v8) (V c main_arg16) (V c main_arg17) (V c main_arg18) (V c main_arg19) (V c main_arg20) (V c main_arg21) (V c main_arg22)) (((cfg2.win 10).blk t).view.emb (ix2 p e))
  rw [emb_out t p e, layer_apply]
  refine (Pay.pay2_apply (iblk2 V c 2 t) (iblk2 V c 1 t) (iblk2 V c 0 t) (V c main_arg16) (V c main_arg18) (V c main_arg17) (V c main_arg19) (V c main_arg22) (V c main_arg21) (V c main_arg20) p e).trans ?_
  exact layerAt_rows (iblk2 V c 0 t) (iblk2 V c 1 t) (iblk2 V c 2 t) (V c main_v30) (V c main_v40) (V c main_v8) (V c main_arg16) (V c main_arg17) (V c main_arg18) (V c main_arg19) (V c main_arg20) (V c main_arg21) (V c main_arg22) p (row t p)
    (blk_h V c t p) (blk_agg V c t p) (blk_cnt V c t p) e

/-- An index of the output array is in point `t`'s block iff each coordinate is in the block's range on its axis. -/
theorem mem_blk (t : Fin cfg2.N) (i : S50000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v41).slice (win2_10.rect t)).set ↔ _
  rw [View.set_slice_whole, Rect.mem_set_unit]
  exact Iff.rfl

/-- The region leaves the layer's formula of the arrays it found: row `r` of the output is written by point `r / 5000`. -/
theorem final (c : Dev nD) : (dat2 V c).arrAt 10 cfg2.N
    = layer (V c main_v30) (V c main_v40) (V c main_v8) (V c main_arg16) (V c main_arg17) (V c main_arg18) (V c main_arg19) (V c main_arg20) (V c main_arg21) (V c main_arg22) :=
  (dat2 V c).arrAt_eq_of_cover 10 (layer (V c main_v30) (V c main_v40) (V c main_v8) (V c main_arg16) (V c main_arg17) (V c main_arg18) (V c main_arg19) (V c main_arg20) (V c main_arg21) (V c main_arg22))
    (fun t _ => flushed_eq V c t) fun i => by
      have hi0 : (i 0).val < 50000 := (i 0).isLt
      have hi1 : (i 1).val < 128 := (i 1).isLt
      have hN : cfg2.N = 10 := N_2
      obtain ⟨t, ht⟩ : ∃ t : Fin cfg2.N, t.val = (i 0).val / 5000 := ⟨⟨(i 0).val / 5000, by omega⟩, rfl⟩
      obtain ⟨-, -, -, -, -, -, -, -, -, -, -, -, -, -, -, e0, e1⟩ := idx_facts t
      refine ⟨t, flush2_10 t, ?_⟩
      rw [mem_blk]
      intro a
      match a with
      | ⟨0, _⟩ =>
        show win2_10.index t (0 : Fin 2) * 5000 ≤ (i 0).val ∧ (i 0).val < win2_10.index t (0 : Fin 2) * 5000 + 5000
        rw [e0, ht]; omega
      | ⟨1, _⟩ =>
        show win2_10.index t (1 : Fin 2) * 128 ≤ (i 1).val ∧ (i 1).val < win2_10.index t (1 : Fin 2) * 128 + 128
        rw [e1]; omega

end Cert.KernelIdeal.Region2

end
-- ==== Proof.Region3.lean ====
/-
  The read-out's kernel region: ten grid points, point `t` taking rows `5000 t … 5000 t + 4999` of the last layer's
  features and the whole of the weight matrix and of the bias, and writing the same rows of the result.  Each point's
  written block is that block of the read-out's formula over the WHOLE arrays, and the ten blocks cover the result
  array, so the region leaves the read-out's formula of the arrays it found.
-/
import proofs.«175492_j62251255988403_1_alg».proof.Proof.Gen.KernelIdeal.Frame
import proofs.«175492_j62251255988403_1_alg».proof.Proof.Spec
import proofs.«175492_j62251255988403_1_alg».proof.Proof.Rows
import proofs.«175492_j62251255988403_1_alg».proof.Proof.Pay
import Idealize.ShloMosaic.Lib.Pipeline.Value
import Idealize.ShloMosaic.Lib.Tactic

noncomputable section

namespace Cert.KernelIdeal.Region3

open Idealize.ShloMosaic Idealize.ShloMosaic.TcCoe Idealize.SL.Sem Idealize.ShloMosaic.ValueIdx
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-tiled windows sit at block `(t, 0)`, the parameter windows at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row `p` of block `t` is row `5000 t + p` of the array. -/
def row (t : Fin cfg3.N) (p : Fin 5000) : Fin 50000 :=
  ⟨t.val * 5000 + p.val, by have h1 := t.isLt; have hN : cfg3.N = 10 := N_3; have h2 := p.isLt; omega⟩

/-! ## Each input window's block, read at an entry -/

theorem blk_h (c : Dev nD) (t : Fin cfg3.N) (p : Fin 5000) (j : Fin 128) :
    (iblk3 V c 0 t : FVec Ideal S5000x128 .f32) (ix2 p j) = (V c main_v41 : Mat 50000 128) (ix2 (row t p) j) := by
  obtain ⟨e0, e1, -⟩ := idx_facts t
  unfold iblk3
  rw [View.read_apply]
  show V c main_v41 _ = V c main_v41 _
  refine congrArg (V c main_v41) ?_
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * j.val = j.val; rw [e1]; omega

/-- A parameter window's block is its whole array. -/
theorem blk_Wo (c : Dev nD) (t : Fin cfg3.N) : (iblk3 V c 1 t : FVec Ideal S128x64 .f32) = V c main_arg23 := by
  obtain ⟨-, -, e0, e1, -⟩ := idx_facts t
  funext y
  unfold iblk3
  rw [View.read_apply]
  show V c main_arg23 _ = V c main_arg23 y
  refine congrArg (V c main_arg23) ?_
  funext a; apply Fin.ext
  match a with
  | ⟨0, _⟩ => show win3_1.index t (0 : Fin 2) * 128 + 1 * (y 0).val = (y 0).val; rw [e0]; omega
  | ⟨1, _⟩ => show win3_1.index t (1 : Fin 2) * 64 + 1 * (y 1).val = (y 1).val; rw [e1]; omega

theorem blk_bo (c : Dev nD) (t : Fin cfg3.N) : (iblk3 V c 2 t : FVec Ideal S64 .f32) = V c main_arg24 := by
  obtain ⟨-, -, -, -, e0, -⟩ := idx_facts t
  funext y
  unfold iblk3
  rw [View.read_apply]
  show V c main_arg24 _ = V c main_arg24 y
  refine congrArg (V c main_arg24) ?_
  funext a; apply Fin.ext
  match a with
  | ⟨0, _⟩ => show win3_2.index t (0 : Fin 1) * 64 + 1 * (y 0).val = (y 0).val; rw [e0]; omega

/-! ## What a point writes back, and the cover -/

/-- The output block's entry `(p, e)` sits at `(5000 t + p, e)` in the array. -/
theorem emb_out (t : Fin cfg3.N) (p : Fin 5000) (e : Fin 64) :
    ((cfg3.win 3).blk t).view.emb (ix2 p e) = (ix2 (row t p) e : S50000x64.Idx) := by
  obtain ⟨-, -, -, -, -, e0, e1⟩ := idx_facts t
  funext a; apply Fin.ext
  match a with
  | ⟨0, _⟩ => show win3_3.index t (0 : Fin 2) * 5000 + 1 * p.val = t.val * 5000 + p.val; rw [e0]; omega
  | ⟨1, _⟩ => show win3_3.index t (1 : Fin 2) * 64 + 1 * e.val = e.val; rw [e1]; omega

/-- What point `t` writes back is block `t` of the read-out's formula over the arrays the region found. -/
theorem flushed_eq (c : Dev nD) (t : Fin cfg3.N) :
    (dat3 V c).flushed 3 t = ((cfg3.win 3).blk t).view.read (Elt Ideal)
      (proj (V c main_v41) (V c main_arg23) (V c main_arg24)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x64) hz, View.ld_unit_zero (S := S64) hz1]
  rw [blk_Wo V c t, blk_bo V c t]
  funext j
  obtain ⟨p, e, rfl⟩ : ∃ (p : Fin 5000) (e : Fin 64), j = ix2 p e := ⟨j 0, j 1, eq_ix2 j⟩
  show k3_pay1 (F := Ideal) (iblk3 V c 0 t) (V c main_arg23) (V c main_arg24) (ix2 p e)
    = (proj (V c main_v41) (V c main_arg23) (V c main_arg24)) (((cfg3.win 3).blk t).view.emb (ix2 p e))
  rw [emb_out t p e, proj_apply]
  refine (Pay.pay3_apply (iblk3 V c 0 t) (V c main_arg23) (V c main_arg24) p e).trans ?_
  exact projAt_rows (iblk3 V c 0 t) (V c main_v41) (V c main_arg23) (V c main_arg24) p (row t p) (blk_h V c t p) e

/-- An index of the result array is in point `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v42).slice (win3_3.rect t)).set ↔ _
  rw [View.set_slice_whole, Rect.mem_set_unit]
  exact Iff.rfl

/-- The region leaves the read-out's formula of the arrays it found: row `r` of the result is written by point `r / 5000`. -/
theorem final (c : Dev nD) : (dat3 V c).arrAt 3 cfg3.N = proj (V c main_v41) (V c main_arg23) (V c main_arg24) :=
  (dat3 V c).arrAt_eq_of_cover 3 (proj (V c main_v41) (V c main_arg23) (V c main_arg24))
    (fun t _ => flushed_eq V c t) fun i => by
      have hi0 : (i 0).val < 50000 := (i 0).isLt
      have hi1 : (i 1).val < 64 := (i 1).isLt
      have hN : cfg3.N = 10 := N_3
      obtain ⟨t, ht⟩ : ∃ t : Fin cfg3.N, t.val = (i 0).val / 5000 := ⟨⟨(i 0).val / 5000, by omega⟩, rfl⟩
      obtain ⟨-, -, -, -, -, e0, e1⟩ := idx_facts t
      refine ⟨t, flush3_3 t, ?_⟩
      rw [mem_blk]
      intro a
      match a with
      | ⟨0, _⟩ =>
        show win3_3.index t (0 : Fin 2) * 5000 ≤ (i 0).val ∧ (i 0).val < win3_3.index t (0 : Fin 2) * 5000 + 5000
        rw [e0, ht]; omega
      | ⟨1, _⟩ =>
        show win3_3.index t (1 : Fin 2) * 64 ≤ (i 1).val ∧ (i 1).val < win3_3.index t (1 : Fin 2) * 64 + 64
        rw [e1]; omega

end Cert.KernelIdeal.Region3

end
-- ==== Proof.Finals.lean ====
/-
  What each of the four kernel regions leaves in its output array, as one function of the arrays the region finds on
  entry: a layer of the network for the first three, the read-out for the last.
-/
import proofs.«175492_j62251255988403_1_alg».proof.Proof.Region0
import proofs.«175492_j62251255988403_1_alg».proof.Proof.Region1
import proofs.«175492_j62251255988403_1_alg».proof.Proof.Region2
import proofs.«175492_j62251255988403_1_alg».proof.Proof.Region3

noncomputable section

namespace Cert.KernelIdeal.Regions

open Idealize.ShloMosaic Idealize.ShloMosaic.TcCoe Idealize.SL.Sem Cert.KernelIdeal Cert.KernelIdeal.Gen Cert.Sage
open Idealize.ShloMosaic.Pipeline (Dat)

variable (V : (c : Dev nD) → (b : Ref sig .tc) → Buf (Elt Ideal) ((c : Thread nD τ).loc b))

theorem final0 (c : Dev nD) : (dat0 V c).arrAt 10 cfg0.N
    = layer (V c main_arg0) (V c main_v18) (V c main_v8) (V c main_arg2) (V c main_arg3) (V c main_arg4) (V c main_arg5) (V c main_arg6) (V c main_arg7) (V c main_arg8) :=
  Cert.KernelIdeal.Region0.final V c

theorem final1 (c : Dev nD) : (dat1 V c).arrAt 10 cfg1.N
    = layer (V c main_v19) (V c main_v29) (V c main_v8) (V c main_arg9) (V c main_arg10) (V c main_arg11) (V c main_arg12) (V c main_arg13) (V c main_arg14) (V c main_arg15) :=
  Cert.KernelIdeal.Region1.final V c

theorem final2 (c : Dev nD) : (dat2 V c).arrAt 10 cfg2.N
    = layer (V c main_v30) (V c main_v40) (V c main_v8) (V c main_arg16) (V c main_arg17) (V c main_arg18) (V c main_arg19) (V c main_arg20) (V c main_arg21) (V c main_arg22) :=
  Cert.KernelIdeal.Region2.final V c

theorem final3 (c : Dev nD) : (dat3 V c).arrAt 3 cfg3.N
    = proj (V c main_v41) (V c main_arg23) (V c main_arg24) :=
  Cert.KernelIdeal.Region3.final V c

end Cert.KernelIdeal.Regions

end
-- ==== Proof.Chain.lean ====
/-
  The kernel program's run as one closed term.  Its host stretches compute, for the features `h` entering a layer, the
  neighbour sums `aggK x1 h` (gather the rows of `h` at the edge sources, scatter-add them at the edge targets) and once
  the neighbour counts `cntK x1` as a column; each of the first three regions leaves one layer of the network in its
  output array and the last region the read-out.  Reading the buffer contents at the seven segment boundaries back to
  the launch memory, the result buffer ends at the network of Spec applied to the launch arguments.
-/
import proofs.«175492_j62251255988403_1_alg».proof.Proof.Gen.KernelIdeal.Frame
import proofs.«175492_j62251255988403_1_alg».proof.Proof.Finals
import proofs.«175492_j62251255988403_1_alg».proof.Proof.Spec
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Regions Cert.Sage

local notation "𝕄" => MT nD τ sig Unit (Elt Ideal) ℕ (UR sig nD τ) ℕ

/-- The edge list's first row: the source node of each edge. -/
abbrev srcK (x1 : (⟨S2x600000, .i32⟩ : BufTy).Contents (Elt Ideal)) : (⟨S600000, .i32⟩ : BufTy).Contents (Elt Ideal) :=
  shapeCast _ (extractStridedSlice S1x600000 ![0, 0] x1 slices_S2x600000_S1x600000_0_0) shapeCasts_S1x600000_S600000
/-- The edge list's second row: the target node of each edge. -/
abbrev tgtK (x1 : (⟨S2x600000, .i32⟩ : BufTy).Contents (Elt Ideal)) : (⟨S600000, .i32⟩ : BufTy).Contents (Elt Ideal) :=
  shapeCast _ (extractStridedSlice S1x600000 ![1, 0] x1 slices_S2x600000_S1x600000_1_0) shapeCasts_S1x600000_S600000

/-- The neighbour sums of the features `h`: the rows of `h` gathered at the edge sources (a negative source index
    wrapped by the node count) and scatter-added into a zero array at the edge targets. -/
def aggK (x1 : (⟨Cert.KernelIdeal.S2x600000, .i32⟩ : BufTy).Contents (Elt Ideal)) (h : Cert.Sage.Mat 50000 128) : Cert.Sage.Mat 50000 128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] x1 slices_S2x600000_S1x600000_1_0) shapeCasts_S1x600000_S600000))
    (Host.gather gather_S50000x128_S600000x1_S600000x128_1_0_n_n_0_1_1128 h
      (broadcastInDim S600000x1 ![0] bcast_S600000_S600000x1_0
        (select
          (cmpi .slt
            (shapeCast _ (extractStridedSlice S1x600000 ![0, 0] x1 slices_S2x600000_S1x600000_0_0) shapeCasts_S1x600000_S600000)
            (broadcastInDim S600000 ![] bcast_S_S600000 (constantI S_ 32 0#32)))
          (addi
            (shapeCast _ (extractStridedSlice S1x600000 ![0, 0] x1 slices_S2x600000_S1x600000_0_0) shapeCasts_S1x600000_S600000)
            (broadcastInDim S600000 ![] bcast_S_S600000 (constantI S_ 32 50000#32)))
          (shapeCast _ (extractStridedSlice S1x600000 ![0, 0] x1 slices_S2x600000_S1x600000_0_0) shapeCasts_S1x600000_S600000))))

/-- The neighbour counts as a column: a one scatter-added into a zero vector at each edge's target. -/
def cntK (x1 : (⟨Cert.KernelIdeal.S2x600000, .i32⟩ : BufTy).Contents (Elt Ideal)) : Cert.Sage.Mat 50000 1 :=
  shapeCast S50000x1
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0
        (shapeCast _ (extractStridedSlice S1x600000 ![1, 0] x1 slices_S2x600000_S1x600000_1_0) shapeCasts_S1x600000_S600000))
      (broadcastInDim S600000 ![] bcast_S_S600000 (constant (F := Ideal) S_ .f32 0x3F800000#32)))
    shapeCasts_S50000_S50000x1

/-! ## What each segment leaves unchanged -/

/-- The buffers the first host stretch writes. -/
abbrev wr0 : List (Ref sig .tc) := [main_v0, main_v1, main_v2, main_v3, main_cst, main_v4, main_cst_0, main_v5, main_v6, main_v7, main_v8, main_c, main_v9, main_v10, main_c_1, main_v11, main_v12, main_v13, main_v14, main_v15, main_cst_2, main_v16, main_v17, main_v18]
/-- The buffers the second host stretch writes. -/
abbrev wr1 : List (Ref sig .tc) := [main_c_3, main_v20, main_v21, main_c_4, main_v22, main_v23, main_v24, main_v25, main_v26, main_cst_5, main_v27, main_v28, main_v29]
/-- The buffers the third host stretch writes. -/
abbrev wr2 : List (Ref sig .tc) := [main_c_6, main_v31, main_v32, main_c_7, main_v33, main_v34, main_v35, main_v36, main_v37, main_cst_8, main_v38, main_v39, main_v40]

theorem hostOps0_writes : (hostOps0 : List (HloOp τ sig (Elt Ideal))).Forall fun op => op.writes ⊆ (wr0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_writes : (hostOps1 : List (HloOp τ sig (Elt Ideal))).Forall fun op => op.writes ⊆ (wr1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_writes : (hostOps2 : List (HloOp τ sig (Elt Ideal))).Forall fun op => op.writes ⊆ (wr2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

section Fold

variable (m : (ℓ : Loc nD τ sig) → Buf (Elt Ideal) ℓ) (ρ : Dev nD → PrngReg) (c : Dev nD)

/-- A buffer a host stretch does not write keeps its contents. -/
theorem skip0 (b : Ref sig .tc) (h : b ∉ wr0) : W1 m ρ c (Proc.devRef .tc b) = W0 m ρ c (Proc.devRef .tc b) :=
  StableHlo.after_of_writes_sub hostOps0 _ hostOps0_writes h
theorem skip1 (b : Ref sig .tc) (h : b ∉ wr1) : W3 m ρ c (Proc.devRef .tc b) = W2 m ρ c (Proc.devRef .tc b) :=
  StableHlo.after_of_writes_sub hostOps1 _ hostOps1_writes h
theorem skip2 (b : Ref sig .tc) (h : b ∉ wr2) : W5 m ρ c (Proc.devRef .tc b) = W4 m ρ c (Proc.devRef .tc b) :=
  StableHlo.after_of_writes_sub hostOps2 _ hostOps2_writes h

/-- A region changes its output array only: an input array is left as entered, any other buffer is not touched. -/
theorem keep0 (b : Ref sig .tc) (hb : b ≠ main_v19) : W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ≠ main_v19 → (cfg0.win w).isOut = false) w hb
    exact (W2_arr m ρ c w).trans (((dat0 (V1 m ρ) c).arrAt_in w hin _).trans (A_eq0 (V1 m ρ) c w))
  · exact W2_of_ne m ρ c b (fun w e => h ⟨w, e⟩)
theorem keep1 (b : Ref sig .tc) (hb : b ≠ main_v30) : W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ≠ main_v30 → (cfg1.win w).isOut = false) w hb
    exact (W4_arr m ρ c w).trans (((dat1 (V3 m ρ) c).arrAt_in w hin _).trans (A_eq1 (V3 m ρ) c w))
  · exact W4_of_ne m ρ c b (fun w e => h ⟨w, e⟩)
theorem keep2 (b : Ref sig .tc) (hb : b ≠ main_v41) : W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ≠ main_v41 → (cfg2.win w).isOut = false) w hb
    exact (W6_arr m ρ c w).trans (((dat2 (V5 m ρ) c).arrAt_in w hin _).trans (A_eq2 (V5 m ρ) c w))
  · exact W6_of_ne m ρ c b (fun w e => h ⟨w, e⟩)

end Fold

section Values

variable (m : (ℓ : Loc nD τ sig) → Buf (Elt Ideal) ℓ) (ρ : Dev nD → PrngReg) (c : Dev nD)

/-! ## What the first host stretch computes from the launch arguments -/

theorem W1_v1 : W1 m ρ c (Proc.devRef .tc main_v1) = srcK (m ((c.tc : Thread nD τ).loc main_arg1)) := by
  dsimp only [W1, hostOps0]
  after_results
  rfl
theorem W1_v3 : W1 m ρ c (Proc.devRef .tc main_v3) = tgtK (m ((c.tc : Thread nD τ).loc main_arg1)) := by
  dsimp only [W1, hostOps0]
  after_results
  rfl
theorem W1_v8 : W1 m ρ c (Proc.devRef .tc main_v8) = cntK (m ((c.tc : Thread nD τ).loc main_arg1)) := by
  dsimp only [W1, hostOps0]
  after_results
  rfl
theorem W1_v18 : W1 m ρ c (Proc.devRef .tc main_v18) = aggK (m ((c.tc : Thread nD τ).loc main_arg1)) (m ((c.tc : Thread nD τ).loc main_arg0)) := by
  dsimp only [W1, hostOps0]
  after_results
  rfl

/-! ## The parameter arrays at the boundary where a region reads them: as launched -/

theorem W1_arg0 : W1 m ρ c (Proc.devRef .tc main_arg0) = m ((c.tc : Thread nD τ).loc main_arg0) :=
  (skip0 m ρ c main_arg0 (by decide))
theorem W1_arg2 : W1 m ρ c (Proc.devRef .tc main_arg2) = m ((c.tc : Thread nD τ).loc main_arg2) :=
  (skip0 m ρ c main_arg2 (by decide))
theorem W1_arg3 : W1 m ρ c (Proc.devRef .tc main_arg3) = m ((c.tc : Thread nD τ).loc main_arg3) :=
  (skip0 m ρ c main_arg3 (by decide))
theorem W1_arg4 : W1 m ρ c (Proc.devRef .tc main_arg4) = m ((c.tc : Thread nD τ).loc main_arg4) :=
  (skip0 m ρ c main_arg4 (by decide))
theorem W1_arg5 : W1 m ρ c (Proc.devRef .tc main_arg5) = m ((c.tc : Thread nD τ).loc main_arg5) :=
  (skip0 m ρ c main_arg5 (by decide))
theorem W1_arg6 : W1 m ρ c (Proc.devRef .tc main_arg6) = m ((c.tc : Thread nD τ).loc main_arg6) :=
  (skip0 m ρ c main_arg6 (by decide))
theorem W1_arg7 : W1 m ρ c (Proc.devRef .tc main_arg7) = m ((c.tc : Thread nD τ).loc main_arg7) :=
  (skip0 m ρ c main_arg7 (by decide))
theorem W1_arg8 : W1 m ρ c (Proc.devRef .tc main_arg8) = m ((c.tc : Thread nD τ).loc main_arg8) :=
  (skip0 m ρ c main_arg8 (by decide))
theorem W3_arg9 : W3 m ρ c (Proc.devRef .tc main_arg9) = m ((c.tc : Thread nD τ).loc main_arg9) :=
  ((skip1 m ρ c main_arg9 (by decide)).trans ((keep0 m ρ c main_arg9 (by decide)).trans (skip0 m ρ c main_arg9 (by decide))))
theorem W3_arg10 : W3 m ρ c (Proc.devRef .tc main_arg10) = m ((c.tc : Thread nD τ).loc main_arg10) :=
  ((skip1 m ρ c main_arg10 (by decide)).trans ((keep0 m ρ c main_arg10 (by decide)).trans (skip0 m ρ c main_arg10 (by decide))))
theorem W3_arg11 : W3 m ρ c (Proc.devRef .tc main_arg11) = m ((c.tc : Thread nD τ).loc main_arg11) :=
  ((skip1 m ρ c main_arg11 (by decide)).trans ((keep0 m ρ c main_arg11 (by decide)).trans (skip0 m ρ c main_arg11 (by decide))))
theorem W3_arg12 : W3 m ρ c (Proc.devRef .tc main_arg12) = m ((c.tc : Thread nD τ).loc main_arg12) :=
  ((skip1 m ρ c main_arg12 (by decide)).trans ((keep0 m ρ c main_arg12 (by decide)).trans (skip0 m ρ c main_arg12 (by decide))))
theorem W3_arg13 : W3 m ρ c (Proc.devRef .tc main_arg13) = m ((c.tc : Thread nD τ).loc main_arg13) :=
  ((skip1 m ρ c main_arg13 (by decide)).trans ((keep0 m ρ c main_arg13 (by decide)).trans (skip0 m ρ c main_arg13 (by decide))))
theorem W3_arg14 : W3 m ρ c (Proc.devRef .tc main_arg14) = m ((c.tc : Thread nD τ).loc main_arg14) :=
  ((skip1 m ρ c main_arg14 (by decide)).trans ((keep0 m ρ c main_arg14 (by decide)).trans (skip0 m ρ c main_arg14 (by decide))))
theorem W3_arg15 : W3 m ρ c (Proc.devRef .tc main_arg15) = m ((c.tc : Thread nD τ).loc main_arg15) :=
  ((skip1 m ρ c main_arg15 (by decide)).trans ((keep0 m ρ c main_arg15 (by decide)).trans (skip0 m ρ c main_arg15 (by decide))))
theorem W5_arg16 : W5 m ρ c (Proc.devRef .tc main_arg16) = m ((c.tc : Thread nD τ).loc main_arg16) :=
  ((skip2 m ρ c main_arg16 (by decide)).trans ((keep1 m ρ c main_arg16 (by decide)).trans ((skip1 m ρ c main_arg16 (by decide)).trans ((keep0 m ρ c main_arg16 (by decide)).trans (skip0 m ρ c main_arg16 (by decide))))))
theorem W5_arg17 : W5 m ρ c (Proc.devRef .tc main_arg17) = m ((c.tc : Thread nD τ).loc main_arg17) :=
  ((skip2 m ρ c main_arg17 (by decide)).trans ((keep1 m ρ c main_arg17 (by decide)).trans ((skip1 m ρ c main_arg17 (by decide)).trans ((keep0 m ρ c main_arg17 (by decide)).trans (skip0 m ρ c main_arg17 (by decide))))))
theorem W5_arg18 : W5 m ρ c (Proc.devRef .tc main_arg18) = m ((c.tc : Thread nD τ).loc main_arg18) :=
  ((skip2 m ρ c main_arg18 (by decide)).trans ((keep1 m ρ c main_arg18 (by decide)).trans ((skip1 m ρ c main_arg18 (by decide)).trans ((keep0 m ρ c main_arg18 (by decide)).trans (skip0 m ρ c main_arg18 (by decide))))))
theorem W5_arg19 : W5 m ρ c (Proc.devRef .tc main_arg19) = m ((c.tc : Thread nD τ).loc main_arg19) :=
  ((skip2 m ρ c main_arg19 (by decide)).trans ((keep1 m ρ c main_arg19 (by decide)).trans ((skip1 m ρ c main_arg19 (by decide)).trans ((keep0 m ρ c main_arg19 (by decide)).trans (skip0 m ρ c main_arg19 (by decide))))))
theorem W5_arg20 : W5 m ρ c (Proc.devRef .tc main_arg20) = m ((c.tc : Thread nD τ).loc main_arg20) :=
  ((skip2 m ρ c main_arg20 (by decide)).trans ((keep1 m ρ c main_arg20 (by decide)).trans ((skip1 m ρ c main_arg20 (by decide)).trans ((keep0 m ρ c main_arg20 (by decide)).trans (skip0 m ρ c main_arg20 (by decide))))))
theorem W5_arg21 : W5 m ρ c (Proc.devRef .tc main_arg21) = m ((c.tc : Thread nD τ).loc main_arg21) :=
  ((skip2 m ρ c main_arg21 (by decide)).trans ((keep1 m ρ c main_arg21 (by decide)).trans ((skip1 m ρ c main_arg21 (by decide)).trans ((keep0 m ρ c main_arg21 (by decide)).trans (skip0 m ρ c main_arg21 (by decide))))))
theorem W5_arg22 : W5 m ρ c (Proc.devRef .tc main_arg22) = m ((c.tc : Thread nD τ).loc main_arg22) :=
  ((skip2 m ρ c main_arg22 (by decide)).trans ((keep1 m ρ c main_arg22 (by decide)).trans ((skip1 m ρ c main_arg22 (by decide)).trans ((keep0 m ρ c main_arg22 (by decide)).trans (skip0 m ρ c main_arg22 (by decide))))))
theorem W6_arg23 : W6 m ρ c (Proc.devRef .tc main_arg23) = m ((c.tc : Thread nD τ).loc main_arg23) :=
  ((keep2 m ρ c main_arg23 (by decide)).trans ((skip2 m ρ c main_arg23 (by decide)).trans ((keep1 m ρ c main_arg23 (by decide)).trans ((skip1 m ρ c main_arg23 (by decide)).trans ((keep0 m ρ c main_arg23 (by decide)).trans (skip0 m ρ c main_arg23 (by decide)))))))
theorem W6_arg24 : W6 m ρ c (Proc.devRef .tc main_arg24) = m ((c.tc : Thread nD τ).loc main_arg24) :=
  ((keep2 m ρ c main_arg24 (by decide)).trans ((skip2 m ρ c main_arg24 (by decide)).trans ((keep1 m ρ c main_arg24 (by decide)).trans ((skip1 m ρ c main_arg24 (by decide)).trans ((keep0 m ρ c main_arg24 (by decide)).trans (skip0 m ρ c main_arg24 (by decide)))))))

/-! ## The edge list's rows and the counts column at the later boundaries -/

theorem W2_v1 : W2 m ρ c (Proc.devRef .tc main_v1) = srcK (m ((c.tc : Thread nD τ).loc main_arg1)) := (keep0 m ρ c main_v1 (by decide)).trans (W1_v1 m ρ c)
theorem W2_v3 : W2 m ρ c (Proc.devRef .tc main_v3) = tgtK (m ((c.tc : Thread nD τ).loc main_arg1)) := (keep0 m ρ c main_v3 (by decide)).trans (W1_v3 m ρ c)
theorem W3_v1 : W3 m ρ c (Proc.devRef .tc main_v1) = srcK (m ((c.tc : Thread nD τ).loc main_arg1)) := (skip1 m ρ c main_v1 (by decide)).trans (W2_v1 m ρ c)
theorem W3_v3 : W3 m ρ c (Proc.devRef .tc main_v3) = tgtK (m ((c.tc : Thread nD τ).loc main_arg1)) := (skip1 m ρ c main_v3 (by decide)).trans (W2_v3 m ρ c)
theorem W4_v1 : W4 m ρ c (Proc.devRef .tc main_v1) = srcK (m ((c.tc : Thread nD τ).loc main_arg1)) := (keep1 m ρ c main_v1 (by decide)).trans (W3_v1 m ρ c)
theorem W4_v3 : W4 m ρ c (Proc.devRef .tc main_v3) = tgtK (m ((c.tc : Thread nD τ).loc main_arg1)) := (keep1 m ρ c main_v3 (by decide)).trans (W3_v3 m ρ c)
theorem W3_v8 : W3 m ρ c (Proc.devRef .tc main_v8) = cntK (m ((c.tc : Thread nD τ).loc main_arg1)) :=
  (skip1 m ρ c main_v8 (by decide)).trans ((keep0 m ρ c main_v8 (by decide)).trans (W1_v8 m ρ c))
theorem W5_v8 : W5 m ρ c (Proc.devRef .tc main_v8) = cntK (m ((c.tc : Thread nD τ).loc main_arg1)) :=
  (skip2 m ρ c main_v8 (by decide)).trans ((keep1 m ρ c main_v8 (by decide)).trans (W3_v8 m ρ c))

/-! ## The neighbour sums the second and third host stretches compute from the features they find -/

theorem W3_v29 : W3 m ρ c (Proc.devRef .tc main_v29) = aggK (m ((c.tc : Thread nD τ).loc main_arg1)) (W2 m ρ c (Proc.devRef .tc main_v19)) := by
  dsimp only [W3, hostOps1]
  after_results
  rw [W2_v1, W2_v3]
  rfl
theorem W5_v40 : W5 m ρ c (Proc.devRef .tc main_v40) = aggK (m ((c.tc : Thread nD τ).loc main_arg1)) (W4 m ρ c (Proc.devRef .tc main_v30)) := by
  dsimp only [W5, hostOps2]
  after_results
  rw [W4_v1, W4_v3]
  rfl

end Values

/-! ## The features after each layer -/

/-- The features after the first layer, from the launch arguments. -/
def hK1 (m : (ℓ : Loc nD τ sig) → Buf (Elt Ideal) ℓ) (c : Dev nD) : Mat 50000 128 :=
  layer (m ((c.tc : Thread nD τ).loc main_arg0)) (aggK (m ((c.tc : Thread nD τ).loc main_arg1)) (m ((c.tc : Thread nD τ).loc main_arg0))) (cntK (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
/-- The features after the second layer. -/
def hK2 (m : (ℓ : Loc nD τ sig) → Buf (Elt Ideal) ℓ) (c : Dev nD) : Mat 50000 128 :=
  layer (hK1 m c) (aggK (m ((c.tc : Thread nD τ).loc main_arg1)) (hK1 m c)) (cntK (m ((c.tc : Thread nD τ).loc main_arg1))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
/-- The features after the third layer. -/
def hK3 (m : (ℓ : Loc nD τ sig) → Buf (Elt Ideal) ℓ) (c : Dev nD) : Mat 50000 128 :=
  layer (hK2 m c) (aggK (m ((c.tc : Thread nD τ).loc main_arg1)) (hK2 m c)) (cntK (m ((c.tc : Thread nD τ).loc main_arg1))) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

section Layers

variable (m : (ℓ : Loc nD τ sig) → Buf (Elt Ideal) ℓ) (ρ : Dev nD → PrngReg) (c : Dev nD)

theorem W2_v19 : W2 m ρ c (Proc.devRef .tc main_v19) = hK1 m c := by
  refine (W2_arr m ρ c 10).trans ((final0 (V1 m ρ) c).trans ?_)
  dsimp only [V1]
  rw [W1_v18, W1_v8, W1_arg0 m ρ c, W1_arg2 m ρ c, W1_arg3 m ρ c, W1_arg4 m ρ c, W1_arg5 m ρ c, W1_arg6 m ρ c, W1_arg7 m ρ c, W1_arg8 m ρ c]
  rfl
theorem W3_v19 : W3 m ρ c (Proc.devRef .tc main_v19) = hK1 m c :=
  (skip1 m ρ c main_v19 (by decide)).trans (W2_v19 m ρ c)
theorem W4_v30 : W4 m ρ c (Proc.devRef .tc main_v30) = hK2 m c := by
  refine (W4_arr m ρ c 10).trans ((final1 (V3 m ρ) c).trans ?_)
  dsimp only [V3]
  rw [W3_v29, W2_v19, W3_v19, W3_v8, W3_arg9 m ρ c, W3_arg10 m ρ c, W3_arg11 m ρ c, W3_arg12 m ρ c, W3_arg13 m ρ c, W3_arg14 m ρ c, W3_arg15 m ρ c]
  rfl
theorem W5_v30 : W5 m ρ c (Proc.devRef .tc main_v30) = hK2 m c :=
  (skip2 m ρ c main_v30 (by decide)).trans (W4_v30 m ρ c)
theorem W6_v41 : W6 m ρ c (Proc.devRef .tc main_v41) = hK3 m c := by
  refine (W6_arr m ρ c 10).trans ((final2 (V5 m ρ) c).trans ?_)
  dsimp only [V5]
  rw [W5_v40, W4_v30, W5_v30, W5_v8, W5_arg16 m ρ c, W5_arg17 m ρ c, W5_arg18 m ρ c, W5_arg19 m ρ c, W5_arg20 m ρ c, W5_arg21 m ρ c, W5_arg22 m ρ c]
  rfl

end Layers

section Run

variable (m : (ℓ : Loc nD τ sig) → Buf (Elt Ideal) ℓ) (ρ : Dev nD → PrngReg)

/-- The result buffer at the last boundary is the network applied to the launch arguments. -/
theorem value (c : Dev nD) :
    W7 m ρ c (Proc.devRef .tc main_v42)
      = Cert.Sage.net (aggK (m ((c.tc : Thread nD τ).loc main_arg1))) (cntK (m ((c.tc : Thread nD τ).loc main_arg1))) (m ((c.tc : Thread nD τ).loc main_arg0))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  refine (W7_arr m ρ c 3).trans ((final3 (V6 m ρ) c).trans ?_)
  dsimp only [V6]
  rw [W6_v41, W6_arg23, W6_arg24]
  rfl

set_option backward.isDefEq.respectTransparency.types false in
/-- Every weakly fair execution of the program from `m` ends with the network's value in the result buffer and the
    argument arrays as launched. -/
theorem run_value : θ_run defs (onTc (τ := τ) (main (F := Ideal))) ⟨m, fun _ => 0, ρ⟩ (fun r => ∀ c : Dev nD,
      r.2.mem ((c.tc : Thread nD τ).loc main_v42)
        = Cert.Sage.net (aggK (m ((c.tc : Thread nD τ).loc main_arg1))) (cntK (m ((c.tc : Thread nD τ).loc main_arg1))) (m ((c.tc : Thread nD τ).loc main_arg0))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v42 (by decide))).trans (value m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c),
       (h c _ (mem_uc main_arg23 (by decide))).trans (W7_main_arg23 m ρ c),
       (h c _ (mem_uc main_arg24 (by decide))).trans (W7_main_arg24 m ρ c)⟩)

end Run

end Cert.KernelIdeal.Chain

end
-- ==== Proof.RefValue.lean ====
/-
  The reference program's result as the network of `Spec`: each layer's dense part, written with whole-array host
  operations, is `Cert.Sage.layer` of the features, their neighbour sums and the neighbour counts; the read-out is
  `Cert.Sage.proj`.  The neighbour sums (a gather at the edges' sources followed by a scatter-add at the edges' targets) and
  the counts (a scatter-add of ones) are kept as they are printed: they are functions of the edge list and the features
  only, the same in every layer.
-/
import proofs.«175492_j62251255988403_1_alg».proof.Proof.Gen.ReferenceIdeal.Read
import proofs.«175492_j62251255988403_1_alg».proof.Proof.Spec
import proofs.«175492_j62251255988403_1_alg».proof.Proof.LibDot
import proofs.«175492_j62251255988403_1_alg».proof.Proof.LibCols

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- the neighbour sums of features h: scatter-add, at the edges' targets, of h's rows gathered at the edges' sources -/
def aggR (x1 : (⟨Cert.ReferenceIdeal.S2x600000, .i32⟩ : BufTy).Contents (Elt Ideal)) (h : Cert.Sage.Mat 50000 128) : Cert.Sage.Mat 50000 128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast S600000 (extractStridedSlice S1x600000 ![1, 0] x1 slices_S2x600000_S1x600000_1_0) shapeCasts_S1x600000_S600000))
    (Host.gather gather_S50000x128_S600000x1_S600000x128_1_0_n_n_0_1_1128 h
      (broadcastInDim S600000x1 ![0] bcast_S600000_S600000x1_0
        (select
          (cmpi .slt (shapeCast S600000 (extractStridedSlice S1x600000 ![0, 0] x1 slices_S2x600000_S1x600000_0_0) shapeCasts_S1x600000_S600000)
            (broadcastInDim S600000 ![] bcast_S_S600000 (constantI S_ 32 0#32)))
          (addi (shapeCast S600000 (extractStridedSlice S1x600000 ![0, 0] x1 slices_S2x600000_S1x600000_0_0) shapeCasts_S1x600000_S600000)
            (broadcastInDim S600000 ![] bcast_S_S600000 (constantI S_ 32 50000#32)))
          (shapeCast S600000 (extractStridedSlice S1x600000 ![0, 0] x1 slices_S2x600000_S1x600000_0_0) shapeCasts_S1x600000_S600000))))

/-- A vector of 50000 entries has as many entries as a column of 50000 rows. -/
theorem casts_vec_col : (⟨1, ![50000]⟩ : Shape).ShapeCasts ⟨2, ![50000, 1]⟩ := by
  unfold Shape.ShapeCasts; decide

/-- the neighbour counts as a column [50000,1]: the reshape of scatter-add %17 -/
def cntR (x1 : (⟨Cert.ReferenceIdeal.S2x600000, .i32⟩ : BufTy).Contents (Elt Ideal)) : Cert.Sage.Mat 50000 1 :=
  shapeCast ⟨2, ![50000, 1]⟩
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0
        (shapeCast S600000 (extractStridedSlice S1x600000 ![1, 0] x1 slices_S2x600000_S1x600000_1_0) shapeCasts_S1x600000_S600000))
      (broadcastInDim S600000 ![] bcast_S_S600000 (constant (F := Ideal) S_ .f32 0x3F800000#32)))
    casts_vec_col

variable {α : Type}

/-- A vector of 128 entries made one row and repeated down 50000 rows, at `(p, e)`: the vector at `e`. -/
theorem row_bcast_apply (v : S128.Idx → α) (p : Fin 50000) (e : Fin 128) :
    broadcastInDim S50000x128 ![0, 1] bcast_S1x128_S50000x128_0_1 (broadcastInDim S1x128 ![1] bcast_S128_S1x128_1 v) (ix2 p e)
      = v (ix1 e) :=
  (broadcastInDim_apply _ bcast_S1x128_S50000x128_0_1 _ (ix2 p e) (ix2 (0 : Fin 1) e) (fun a => match a with
    | ⟨0, _⟩ => by show 0 = if (1 : Nat) = 1 then 0 else p.val; rw [if_pos rfl]
    | ⟨1, _⟩ => by show e.val = if (128 : Nat) = 1 then 0 else e.val; rw [if_neg (by decide)])).trans
  (broadcastInDim_apply _ bcast_S128_S1x128_1 v (ix2 (0 : Fin 1) e) (ix1 e) (fun a => match a with
    | ⟨0, _⟩ => by show e.val = if (128 : Nat) = 1 then 0 else e.val; rw [if_neg (by decide)]))

/-- A vector of 64 entries made one row and repeated down 50000 rows, at `(p, e)`: the vector at `e`. -/
theorem row_bcast64_apply (v : S64.Idx → α) (p : Fin 50000) (e : Fin 64) :
    broadcastInDim S50000x64 ![0, 1] bcast_S1x64_S50000x64_0_1 (broadcastInDim S1x64 ![1] bcast_S64_S1x64_1 v) (ix2 p e)
      = v (ix1 e) :=
  (broadcastInDim_apply _ bcast_S1x64_S50000x64_0_1 _ (ix2 p e) (ix2 (0 : Fin 1) e) (fun a => match a with
    | ⟨0, _⟩ => by show 0 = if (1 : Nat) = 1 then 0 else p.val; rw [if_pos rfl]
    | ⟨1, _⟩ => by show e.val = if (64 : Nat) = 1 then 0 else e.val; rw [if_neg (by decide)])).trans
  (broadcastInDim_apply _ bcast_S64_S1x64_1 v (ix2 (0 : Fin 1) e) (ix1 e) (fun a => match a with
    | ⟨0, _⟩ => by show e.val = if (64 : Nat) = 1 then 0 else e.val; rw [if_neg (by decide)]))

/-- A vector of 50000 entries made one column and repeated across 128 columns, at `(p, e)`: the vector at `p`. -/
theorem col_bcast_apply (v : S50000.Idx → α) (p : Fin 50000) (e : Fin 128) :
    broadcastInDim S50000x128 ![0, 1] bcast_S50000x1_S50000x128_0_1 (broadcastInDim S50000x1 ![0] bcast_S50000_S50000x1_0 v) (ix2 p e)
      = v (ix1 p) :=
  (broadcastInDim_apply _ bcast_S50000x1_S50000x128_0_1 _ (ix2 p e) (ix2 p (0 : Fin 1)) (fun a => match a with
    | ⟨0, _⟩ => by show p.val = if (50000 : Nat) = 1 then 0 else p.val; rw [if_neg (by decide)]
    | ⟨1, _⟩ => by show 0 = if (1 : Nat) = 1 then 0 else e.val; rw [if_pos rfl])).trans
  (broadcastInDim_apply _ bcast_S50000_S50000x1_0 v (ix2 p (0 : Fin 1)) (ix1 p) (fun a => match a with
    | ⟨0, _⟩ => by show p.val = if (50000 : Nat) = 1 then 0 else p.val; rw [if_neg (by decide)]))

/-- A vector of 50000 entries reshaped to a column, at `(p, 0)`: the vector at `p`. -/
theorem col_cast_apply (v : (⟨1, ![50000]⟩ : Shape).Idx → α) (p : Fin 50000) :
    shapeCast ⟨2, ![50000, 1]⟩ v casts_vec_col (ix2 p (0 : Fin 1)) = v (ix1 p) :=
  shapeCast_apply v casts_vec_col _ _ (by
    rw [Shape.rowMajor_val_two, Shape.rowMajor_val_one]
    show p.val = p.val * 1 + 0
    omega)

/-- One scalar repeated over a shape reads that scalar everywhere. -/
theorem scalar_bcast_apply {t : Shape} (h : S_.BroadcastsInDim t ![]) (c : S_.Idx → α) (i : t.Idx) :
    broadcastInDim t ![] h c i = c ix0 :=
  broadcastInDim_apply _ h c i ix0 (fun a => a.elim0)

/-- The dense part of a layer, written with whole-array host operations on the features `h`, their neighbour sums
    `agg` and the vector of neighbour counts `cv`, is the layer of the specification with the counts as a column. -/
theorem dense_layer (h agg : Cert.Sage.Mat 50000 128) (cv : Cert.Sage.Vc 50000)
    (Wl : Cert.Sage.Mat 128 128) (bl : Cert.Sage.Vc 128) (Wr : Cert.Sage.Mat 128 128) (g b rm rv : Cert.Sage.Vc 128) :
    maximumf
      (addf
        (mulf
          (subf
            (addf
              (addf
                (Host.dotGeneral (F := Ideal) dot_S50000x128_S128x128_S50000x128_1_0_0_1_n_n none
                  (Host.divf (F := Ideal) agg
                    (broadcastInDim S50000x128 ![0, 1] bcast_S50000x1_S50000x128_0_1
                      (broadcastInDim S50000x1 ![0] bcast_S50000_S50000x1_0
                        (maximumf cv (broadcastInDim S50000 ![] bcast_S_S50000 (constant (F := Ideal) S_ .f32 0x3F800000#32))))))
                  Wl)
                (broadcastInDim S50000x128 ![0, 1] bcast_S1x128_S50000x128_0_1 (broadcastInDim S1x128 ![1] bcast_S128_S1x128_1 bl)))
              (Host.dotGeneral (F := Ideal) dot_S50000x128_S128x128_S50000x128_1_0_0_1_n_n none h Wr))
            (broadcastInDim S50000x128 ![0, 1] bcast_S1x128_S50000x128_0_1 (broadcastInDim S1x128 ![1] bcast_S128_S1x128_1 rm)))
          (broadcastInDim S50000x128 ![0, 1] bcast_S1x128_S50000x128_0_1 (broadcastInDim S1x128 ![1] bcast_S128_S1x128_1 (mulf g (Host.rsqrt (F := Ideal) (addf rv (broadcastInDim S128 ![] bcast_S_S128 (constant (F := Ideal) S_ .f32 0x3727C5AC#32))))))))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = Cert.Sage.layer h agg (shapeCast ⟨2, ![50000, 1]⟩ cv casts_vec_col) Wl bl Wr g b rm rv := by
  funext i
  obtain ⟨p, e, rfl⟩ : ∃ (p : Fin 50000) (e : Fin 128), i = ix2 p e := ⟨i 0, i 1, eq_ix2 i⟩
  rw [Cert.Sage.layer_apply]
  unfold Cert.Sage.layerAt
  simp only [maximumf_apply, addf_apply, mulf_apply, subf_apply, row_bcast_apply, scalar_bcast_apply, constant_apply,
    Cert.LibDot.dotGeneral_apply dot_S50000x128_S128x128_S50000x128_1_0_0_1_n_n rfl rfl lhs_main_v23_0 lhs_main_v23_1 rhs_main_v23_0 rhs_main_v23_1,
    col_cast_apply]
  have hmean : ∀ j : Fin 128,
      Host.divf (F := Ideal) agg
          (broadcastInDim S50000x128 ![0, 1] bcast_S50000x1_S50000x128_0_1 (broadcastInDim S50000x1 ![0] bcast_S50000_S50000x1_0 (maximumf cv (broadcastInDim S50000 ![] bcast_S_S50000 (constant (F := Ideal) S_ .f32 0x3F800000#32)))))
          (ix2 p j)
        = Ideal.div (agg (ix2 p j)) (max (cv (ix1 p)) (Ideal.ofBits .f32 0x3F800000#32)) := fun j => by
    show Ideal.div (agg (ix2 p j)) ((broadcastInDim S50000x128 ![0, 1] bcast_S50000x1_S50000x128_0_1 (broadcastInDim S50000x1 ![0] bcast_S50000_S50000x1_0 (maximumf cv (broadcastInDim S50000 ![] bcast_S_S50000 (constant (F := Ideal) S_ .f32 0x3F800000#32))))) (ix2 p j)) = _
    rw [col_bcast_apply _ p j, maximumf_apply, scalar_bcast_apply bcast_S_S50000]
    rfl
  have hscale : mulf g (Host.rsqrt (F := Ideal) (addf rv (broadcastInDim S128 ![] bcast_S_S128 (constant (F := Ideal) S_ .f32 0x3727C5AC#32)))) (ix1 e)
      = g (ix1 e) * Ideal.rsqrt (rv (ix1 e) + Ideal.ofBits .f32 0x3727C5AC#32) := by
    show g (ix1 e) * Ideal.rsqrt (rv (ix1 e) + broadcastInDim S128 ![] bcast_S_S128 (constant (F := Ideal) S_ .f32 0x3727C5AC#32) (ix1 e)) = _
    rw [scalar_bcast_apply bcast_S_S128]
    rfl
  rw [row_bcast_apply bl p e, row_bcast_apply rm p e, row_bcast_apply b p e, row_bcast_apply _ p e, hscale,
    scalar_bcast_apply bcast_S_S50000x128, Finset.sum_congr rfl (fun j _ => by rw [hmean j])]
  rfl

/-- The read-out, written with whole-array host operations, is the read-out of the specification. -/
theorem dense_readout (h : Cert.Sage.Mat 50000 128) (Wo : Cert.Sage.Mat 128 64) (bo : Cert.Sage.Vc 64) :
    addf (Host.dotGeneral (F := Ideal) dot_S50000x128_S128x64_S50000x64_1_0_0_1_n_n none h Wo)
        (broadcastInDim S50000x64 ![0, 1] bcast_S1x64_S50000x64_0_1 (broadcastInDim S1x64 ![1] bcast_S64_S1x64_1 bo))
      = Cert.Sage.proj h Wo bo := by
  funext i
  obtain ⟨p, e, rfl⟩ : ∃ (p : Fin 50000) (e : Fin 64), i = ix2 p e := ⟨i 0, i 1, eq_ix2 i⟩
  rw [Cert.Sage.proj_apply]
  unfold Cert.Sage.projAt
  rw [addf_apply, row_bcast64_apply bo p e]
  exact congrArg (· + bo (ix1 e))
    (Cert.LibDot.dotGeneral_apply dot_S50000x128_S128x64_S50000x64_1_0_0_1_n_n rfl rfl
      lhs_main_v121_0 lhs_main_v121_1 rhs_main_v121_0 rhs_main_v121_1 none .single h Wo p e)

/-- The first layer's result: the layer of the input features. -/
theorem layer1_value (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v42 (F := Ideal) x0 x1 x2 x3 x4 x5 x6 x7 x8 = Cert.Sage.layer x0 (aggR x1 x0) (cntR x1) x2 x3 x4 x5 x6 x7 x8 :=
  dense_layer x0 (aggR x1 x0) (val_main_v17 (F := Ideal) x1) x2 x3 x4 x5 x6 x7 x8

/-- The second layer's result: the layer of the first layer's result. -/
theorem layer2_value (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) :
    val_main_v81 (F := Ideal) x0 x1 x2 x3 x4 x5 x6 x7 x8 x9 x10 x11 x12 x13 x14 x15
      = Cert.Sage.layer (val_main_v42 (F := Ideal) x0 x1 x2 x3 x4 x5 x6 x7 x8) (aggR x1 (val_main_v42 (F := Ideal) x0 x1 x2 x3 x4 x5 x6 x7 x8)) (cntR x1) x9 x10 x11 x12 x13 x14 x15 :=
  dense_layer (val_main_v42 (F := Ideal) x0 x1 x2 x3 x4 x5 x6 x7 x8) (aggR x1 (val_main_v42 (F := Ideal) x0 x1 x2 x3 x4 x5 x6 x7 x8)) (val_main_v56 (F := Ideal) x1) x9 x10 x11 x12 x13 x14 x15

/-- The third layer's result: the layer of the second layer's result. -/
theorem layer3_value (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) :
    val_main_v120 (F := Ideal) x0 x1 x2 x3 x4 x5 x6 x7 x8 x9 x10 x11 x12 x13 x14 x15 x16 x17 x18 x19 x20 x21 x22
      = Cert.Sage.layer (val_main_v81 (F := Ideal) x0 x1 x2 x3 x4 x5 x6 x7 x8 x9 x10 x11 x12 x13 x14 x15) (aggR x1 (val_main_v81 (F := Ideal) x0 x1 x2 x3 x4 x5 x6 x7 x8 x9 x10 x11 x12 x13 x14 x15)) (cntR x1) x16 x17 x18 x19 x20 x21 x22 :=
  dense_layer (val_main_v81 (F := Ideal) x0 x1 x2 x3 x4 x5 x6 x7 x8 x9 x10 x11 x12 x13 x14 x15) (aggR x1 (val_main_v81 (F := Ideal) x0 x1 x2 x3 x4 x5 x6 x7 x8 x9 x10 x11 x12 x13 x14 x15)) (val_main_v95 (F := Ideal) x1) x16 x17 x18 x19 x20 x21 x22

/-- The reference program's result is the network of the specification, on the neighbour sums `aggR` and the neighbour
    counts `cntR` of the edge list. -/
theorem ref_value (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x64, .f32⟩ : BufTy).Contents (Elt Ideal)) (x24 : (⟨S64, .f32⟩ : BufTy).Contents (Elt Ideal)) :
    Cert.ReferenceIdeal.Read.val_main_v124 (F := Ideal) x0 x1 x2 x3 x4 x5 x6 x7 x8 x9 x10 x11 x12 x13 x14 x15 x16 x17 x18 x19 x20 x21 x22 x23 x24
      = Cert.Sage.net (aggR x1) (cntR x1) x0 x2 x3 x4 x5 x6 x7 x8 x9 x10 x11 x12 x13 x14 x15 x16 x17 x18 x19 x20 x21 x22 x23 x24 := by
  unfold Cert.Sage.net
  rw [← layer1_value x0 x1 x2 x3 x4 x5 x6 x7 x8, ← layer2_value x0 x1 x2 x3 x4 x5 x6 x7 x8 x9 x10 x11 x12 x13 x14 x15, ← layer3_value x0 x1 x2 x3 x4 x5 x6 x7 x8 x9 x10 x11 x12 x13 x14 x15 x16 x17 x18 x19 x20 x21 x22]
  exact dense_readout (val_main_v120 (F := Ideal) x0 x1 x2 x3 x4 x5 x6 x7 x8 x9 x10 x11 x12 x13 x14 x15 x16 x17 x18 x19 x20 x21 x22) x23 x24

end Cert.ReferenceIdeal.RefValue

end
-- ==== Proof.lean ====
/-
  The certificate's claims.  Both programs compute a three-layer graph network on 50000 nodes with 128 features and a
  64-wide read-out: each layer takes, per node, the mean of its in-neighbours' features (their sum over the edges
  divided by the larger of the in-degree and 1), multiplies the mean and the node's own features by two weight
  matrices, adds a bias, normalises by running statistics with an affine map, and clamps at zero.  The neighbour sums
  and the in-degrees are the same gather and scatter-add on the host in both programs.  The kernel computes each layer's
  dense part in ten blocks of 5000 rows; rows do not interact, so the ten blocks are the layer's formula over the
  whole arrays, and on the extended reals its matrix products are the same plain sums as the reference's.  So the two
  results are one function of the arguments, with no appeal to the arguments being finite.
-/
import proofs.«175492_j62251255988403_1_alg».proof.Defs
import proofs.«175492_j62251255988403_1_alg».proof.Proof.Gen.Kernel
import proofs.«175492_j62251255988403_1_alg».proof.Proof.Gen.Kernel.Frame
import proofs.«175492_j62251255988403_1_alg».proof.Proof.Gen.KernelIdeal
import proofs.«175492_j62251255988403_1_alg».proof.Proof.Gen.KernelIdeal.Frame
import proofs.«175492_j62251255988403_1_alg».proof.Proof.Gen.ReferenceIdeal
import proofs.«175492_j62251255988403_1_alg».proof.Proof.Gen.Pre_finite_inputs
import proofs.«175492_j62251255988403_1_alg».proof.Proof.Gen.ReferenceIdeal.Run
import proofs.«175492_j62251255988403_1_alg».proof.Proof.Gen.ReferenceIdeal.Read
import proofs.«175492_j62251255988403_1_alg».proof.Proof.Spec
import proofs.«175492_j62251255988403_1_alg».proof.Proof.Chain
import proofs.«175492_j62251255988403_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- The two programs take the neighbour sums by the same gather and scatter-add over the same edge list … -/
theorem agg_eq (x1 : (⟨Cert.KernelIdeal.S2x600000, .i32⟩ : BufTy).Contents (Elt Ideal)) :
    Cert.KernelIdeal.Chain.aggK x1 = Cert.ReferenceIdeal.RefValue.aggR x1 := rfl

/-- … and count the in-neighbours by the same scatter-add of ones. -/
theorem cnt_eq (x1 : (⟨Cert.KernelIdeal.S2x600000, .i32⟩ : BufTy).Contents (Elt Ideal)) :
    Cert.KernelIdeal.Chain.cntK x1 = Cert.ReferenceIdeal.RefValue.cntR x1 := rfl

set_option maxHeartbeats 400000 in
/-- From arguments that agree, the kernel's result array and the reference's both end at the network of the arguments. -/
theorem algebraic : Cert.algebraic_KernelIdeal_ReferenceIdeal := by
  intro m ρ m' ρ' _ hagree
  refine ⟨fun c => (Cert.Sage.net (Cert.KernelIdeal.Chain.aggK (m ((c.tc : Thread Cert.KernelIdeal.nD Cert.KernelIdeal.τ).loc Cert.KernelIdeal.main_arg1))) (Cert.KernelIdeal.Chain.cntK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))),
    Cert.KernelIdeal.Chain.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24⟩ := hagree c
  rw [Cert.ReferenceIdeal.Read.val_main_v124_eq, Cert.ReferenceIdeal.RefValue.ref_value,
    h0, h1, h2, h3, h4, h5, h6, h7, h8, h9, h10, h11, h12, h13, h14, h15, h16, h17, h18, h19, h20, h21, h22, h23, h24, ← agg_eq, ← cnt_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
